-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S4x4096x4096 : Shape := ⟨3, ![4, 4096, 4096]⟩
abbrev S128x128 : Shape := ⟨2, ![128, 128]⟩
abbrev S128 : Shape := ⟨1, ![128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4x4096x128 .f32) (main_arg1 : FVec F S4x4096x4096 .f32) (main_arg2 : FVec F S128x128 .f32) (main_arg3 : FVec F S128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4x4096x128 : Shape := ⟨3, ![4, 4096, 128]⟩
abbrev S4x4096x4096 : Shape := ⟨3, ![4, 4096, 4096]⟩
abbrev S128x128 : Shape := ⟨2, ![128, 128]⟩
abbrev S128 : Shape := ⟨1, ![128]⟩
abbrev S4x4096x1 : Shape := ⟨3, ![4, 4096, 1]⟩
abbrev S1x1024x4096 : Shape := ⟨3, ![1, 1024, 4096]⟩
abbrev S1x1024x128 : Shape := ⟨3, ![1, 1024, 128]⟩
abbrev S1x1024x1 : Shape := ⟨3, ![1, 1024, 1]⟩
abbrev S1024x1 : Shape := ⟨2, ![1024, 1]⟩
abbrev S1024x4096 : Shape := ⟨2, ![1024, 4096]⟩
abbrev S1024x512 : Shape := ⟨2, ![1024, 512]⟩
abbrev S1024 : Shape := ⟨1, ![1024]⟩
abbrev S1024x128 : Shape := ⟨2, ![1024, 128]⟩
abbrev S1x128 : Shape := ⟨2, ![1, 128]⟩
abbrev S1x512x4096 : Shape := ⟨3, ![1, 512, 4096]⟩
abbrev S1x4096x128 : Shape := ⟨3, ![1, 4096, 128]⟩
abbrev S1x512x1 : Shape := ⟨3, ![1, 512, 1]⟩
abbrev S1x512x128 : Shape := ⟨3, ![1, 512, 128]⟩
abbrev S512x4096 : Shape := ⟨2, ![512, 4096]⟩
abbrev S4096x128 : Shape := ⟨2, ![4096, 128]⟩
abbrev S512x128 : Shape := ⟨2, ![512, 128]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S128x128, .f32⟩
  | .hbm, ⟨3, _⟩ => ⟨S128, .f32⟩
  | .hbm, ⟨4, _⟩ => ⟨S4x4096x1, .f32⟩
  | .hbm, ⟨5, _⟩ => ⟨S4x4096x128, .bf16⟩
  | .hbm, ⟨6, _⟩ => ⟨S128x128, .f32⟩
  | .hbm, ⟨7, _⟩ => ⟨S1x128, .f32⟩
  | .hbm, ⟨8, _⟩ => ⟨S4x4096x128, .f32⟩
  | .local _ .vmem, ⟨0, _⟩ => ⟨S1x1024x4096, .f32⟩
  | .local _ .vmem, ⟨1, _⟩ => ⟨S1x1024x4096, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x1, .f32⟩
  | .local _ .vmem, ⟨5, _⟩ => ⟨S1x1024x1, .f32⟩
  | .local _ .vmem, ⟨6, _⟩ => ⟨S1x1024x128, .bf16⟩
  | .local _ .vmem, ⟨7, _⟩ => ⟨S1x1024x128, .bf16⟩
  | .local _ .vmem, ⟨8, _⟩ => ⟨S1x512x4096, .f32⟩
  | .local _ .vmem, ⟨9, _⟩ => ⟨S1x512x4096, .f32⟩
  | .local _ .vmem, ⟨10, _⟩ => ⟨S1x4096x128, .bf16⟩
  | .local _ .vmem, ⟨11, _⟩ => ⟨S1x512x1, .f32⟩
  | .local _ .vmem, ⟨12, _⟩ => ⟨S1x512x1, .f32⟩
  | .local _ .vmem, ⟨13, _⟩ => ⟨S128x128, .f32⟩
  | .local _ .vmem, ⟨14, _⟩ => ⟨S1x128, .f32⟩
  | .local _ .vmem, ⟨15, _⟩ => ⟨S1x512x128, .f32⟩
  | .local _ .vmem, ⟨16, _⟩ => ⟨S1x512x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_0 : BitVec 32 := 0#32
  let c8_i32 : BitVec 32 := 8#32
  let v1 : BitVec 32 := Scalar.addi c0_i32_0 c8_i32
  let c1_i32 : BitVec 32 := 1#32
  ⟨c0_i32_0, v1, c1_i32⟩
def k0_mult1 (k0_t1 : Fin k0_t1_loop.trips) : BitVec 32 :=
  let c0_i32_0 : BitVec 32 := 0#32
  let c1_i32 : BitVec 32 := 1#32
  let arg6 : BitVec 32 := Scf.iv c0_i32_0 c1_i32 k0_t1
  let c512_i32 : BitVec 32 := 512#32
  let v21 : BitVec 32 := Scalar.muli arg6 c512_i32
  v21
def k0_off1 (k0_t1 : Fin k0_t1_loop.trips) : Fin 2 → Nat :=
  let c0_15 : Index := 0#32
  let c0_i32_0 : BitVec 32 := 0#32
  let c1_i32 : BitVec 32 := 1#32
  let arg6 : BitVec 32 := Scf.iv c0_i32_0 c1_i32 k0_t1
  let c512_i32 : BitVec 32 := 512#32
  let v21 : BitVec 32 := Scalar.muli arg6 c512_i32
  let v22 : BitVec 32 := v21
  let v25 : Index := Scalar.indexCast v22
  ![0, v25.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def k1_mult1 (i : grid1.Coords) : BitVec 32 :=
  let arg1 : BitVec 32 := BitVec.ofNat 32 (i 1).val
  let c512_i32 : BitVec 32 := 512#32
  let v0 : BitVec 32 := Scalar.muli arg1 c512_i32
  v0
def k1_off1 (i : grid1.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v10 : Index := Scalar.indexCast v1
  let c0_7 : Index := 0#32
  ![v10.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x4096x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S1x1024x4096_S1x1024x4096_0_0_0 : ∀ a, (![0, 0, 0] : Fin 3 → Nat) a + S1x1024x4096.size a ≤ S1x1024x4096.size a
  squeezes_S1x1024x4096_S1024x4096 : S1x1024x4096.Squeezes S1024x4096
  h_S1024x512 : 0 < S1024x512.numel
  reduces_S1024x512_S1024 : S1024x512.Reduces [1] S1024
  shapeCasts_S1024_S1024x1 : S1024.ShapeCasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  broadcasts_S1024x1_S1024x128 : S1024x1.Broadcasts S1024x128
  bitsLt_bf16_f32 : FTy.bits .bf16 < FTy.bits .f32
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  transposes_S128x128_S128x128_1_0 : S128x128.Transposes [1, 0] S128x128
  shapeCasts_S128_S1x128 : S128.ShapeCasts S1x128
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  squeezes_S1x4096x128_S4096x128 : S1x4096x128.Squeezes S4096x128
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S512x1_S512x128 : S512x1.Broadcasts S512x128
  broadcasts_S1x128_S512x128 : S1x128.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1024x512.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4096.size a ≤ S4x4096x4096.size a
  hwx0_0 : ∀ i : grid0.Coords, EltTy.bits .f32 = 32 ∨ (Rect.block (s := S4x4096x4096) S1x1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S4x4096x128.size a
  hwx0_1 : ∀ i : grid0.Coords, EltTy.bits .f32 = 32 ∨ (Rect.block (s := S4x4096x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x4096x1.size a
  hwx0_2 : ∀ i : grid0.Coords, EltTy.bits .f32 = 32 ∨ (Rect.block (s := S4x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S4x4096x128.size a
  hwx0_3 : ∀ i : grid0.Coords, EltTy.bits .bf16 = 32 ∨ (Rect.block (s := S4x4096x128) S1x1024x128.size (cc0_transform_3 i) (hinb0_3 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x128.size a ≤ S4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S4x4096x4096.size a
  hwx1_0 : ∀ i : grid1.Coords, EltTy.bits .f32 = 32 ∨ (Rect.block (s := S4x4096x4096) S1x512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S4x4096x128.size a
  hwx1_1 : ∀ i : grid1.Coords, EltTy.bits .bf16 = 32 ∨ (Rect.block (s := S4x4096x128) S1x4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1.size a ≤ S4x4096x1.size a
  hwx1_2 : ∀ i : grid1.Coords, EltTy.bits .f32 = 32 ∨ (Rect.block (s := S4x4096x1) S1x512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x128.size a ≤ S4x4096x128.size a
  hwx1_5 : ∀ i : grid1.Coords, EltTy.bits .f32 = 32 ∨ (Rect.block (s := S4x4096x128) S1x512x128.size (cc1_transform_5 i) (hinb1_5 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg1) S1x1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1x512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x4096x128 : Shape := ⟨3, ![4, 4096, 128]⟩
abbrev S4x4096x4096 : Shape := ⟨3, ![4, 4096, 4096]⟩
abbrev S128x128 : Shape := ⟨2, ![128, 128]⟩
abbrev S128 : Shape := ⟨1, ![128]⟩
abbrev S4096x4096 : Shape := ⟨2, ![4096, 4096]⟩
abbrev S_ : Shape := ⟨0, ![]⟩
abbrev S1x4096x4096 : Shape := ⟨3, ![1, 4096, 4096]⟩
abbrev S4x4096 : Shape := ⟨2, ![4, 4096]⟩
abbrev S4x4096x1 : Shape := ⟨3, ![4, 4096, 1]⟩
abbrev S4x1x4096 : Shape := ⟨3, ![4, 1, 4096]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S128x128, .f32⟩
  | .hbm, ⟨3, _⟩ => ⟨S128, .f32⟩
  | .hbm, ⟨4, _⟩ => ⟨S4096x4096, .i32⟩
  | .hbm, ⟨5, _⟩ => ⟨S4096x4096, .i32⟩
  | .hbm, ⟨6, _⟩ => ⟨S_, .i32⟩
  | .hbm, ⟨7, _⟩ => ⟨S4096x4096, .i32⟩
  | .hbm, ⟨8, _⟩ => ⟨S4096x4096, .i32⟩
  | .hbm, ⟨9, _⟩ => ⟨S4096x4096, .i1⟩
  | .hbm, ⟨10, _⟩ => ⟨S4096x4096, .f32⟩
  | .hbm, ⟨11, _⟩ => ⟨S1x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .i1⟩
  | .hbm, ⟨19, _⟩ => ⟨S4x4096, .f32⟩
  | .hbm, ⟨20, _⟩ => ⟨S_, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4x1x4096, .f32⟩
  | .hbm, ⟨28, _⟩ => ⟨S4x4096x4096, .f32⟩
  | .hbm, ⟨29, _⟩ => ⟨S4x4096x4096, .f32⟩
  | .hbm, ⟨30, _⟩ => ⟨S4x4096x128, .f32⟩
  | .hbm, ⟨31, _⟩ => ⟨S4x4096x128, .f32⟩
  | .hbm, ⟨32, _⟩ => ⟨S1x1x128, .f32⟩
  | .hbm, ⟨33, _⟩ => ⟨S4x4096x128, .f32⟩
  | .hbm, ⟨34, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  dot_S4x4096x4096_S4x4096x128_S4x4096x128_2_1_1_2_0_0_wf : DotDims.WF S4x4096x4096 S4x4096x128 S4x4096x128 [2] [1] [1] [2] [0] [0]
  dot_S4x4096x128_S128x128_S4x4096x128_2_1_01_0_n_n_wf : DotDims.WF S4x4096x128 S128x128 S4x4096x128 [2] [1] [0, 1] [0] [] []

variable [Facts₀]

def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf
def dot_S4x4096x128_S128x128_S4x4096x128_2_1_01_0_n_n : DotDims S4x4096x128 S128x128 S4x4096x128 where
  lhsContracting := [2]
  rhsContracting := [1]
  lhsNonContracting := [0, 1]
  rhsNonContracting := [0]
  lhsBatch := []
  rhsBatch := []
  wf := dot_S4x4096x128_S128x128_S4x4096x128_2_1_01_0_n_n_wf

class Facts : Prop extends Facts₀ where

variable [Facts]
-- ==== Proof.BitsRun0.lean ====
/- The first kernel's body on whole staging buffers: the two inputs' kept, each output's left with the pieces the body stored. -/
import proofs.«100409_j75703093559638_2_alg».proof.Proof.Gen.Kernel.Launch
import proofs.«100409_j75703093559638_2_alg».proof.Proof.Gen.Kernel.Skeleton
import proofs.«100409_j75703093559638_2_alg».proof.Proof.Gen.Kernel.Points
import proofs.«100409_j75703093559638_2_alg».proof.Proof.Gen.Kernel.Loops
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weights' staging buffer seen as a matrix of 1024 rows: the view the row-sum loop loads its chunks through. -/
abbrev rowsOf (arg2 : Memref sig .tc .vmem S1x1024x4096 .f32) : Memref sig .tc .vmem S1024x4096 .f32 :=
  (arg2.slice (Rect.unit (s := S1x1024x4096) ![0, 0, 0] S1x1024x4096.size inb_S1x1024x4096_S1x1024x4096_0_0_0) (fun _ => rfl)).squeeze S1024x4096 squeezes_S1x1024x4096_S1024x4096

/-- Dropping the leading unit axis of the whole buffer keeps its set of elements. -/
theorem set_rowsOf (arg2 : Memref sig .tc .vmem S1x1024x4096 .f32) : (rowsOf arg2).view.set = arg2.view.set := by
  rw [Memref.set_view_squeeze]
  show (arg2.view.slice _).set = _
  rw [View.set_slice]
  show _ = Finset.univ.map arg2.view.emb
  refine congrArg (fun S => Finset.map arg2.view.emb S) ?_
  exact Finset.eq_univ_iff_forall.mpr (View.mem_set_unit_zero (funext fun a => by match a with | ⟨0, _⟩ => rfl | ⟨1, _⟩ => rfl | ⟨2, _⟩ => rfl) _)

/-- So holding the buffer's elements is holding the matrix view's elements, at the same contents. -/
theorem pointsTo_rowsOf (c : Dev nD) (arg2 : Memref sig .tc .vmem S1x1024x4096 .f32) (f : Buf (Elt F) (arg2.view.loc (c : Thread nD τ))) :
    (arg2.view.loc (c : Thread nD τ) ↦[arg2.view.set]{fullShare} f : sProp 𝕄)
      = ((rowsOf arg2).view.loc (c : Thread nD τ) ↦[(rowsOf arg2).view.set]{fullShare} f) := by
  rw [set_rowsOf]

theorem rowsOf_in (c : Dev nD) (arg2 : Memref sig .tc .vmem S1x1024x4096 .f32) (f : Buf (Elt F) (arg2.view.loc (c : Thread nD τ))) :
    (arg2.view.loc (c : Thread nD τ) ↦[arg2.view.set]{fullShare} f : sProp 𝕄)
      ⊢ ((rowsOf arg2).view.loc (c : Thread nD τ) ↦[(rowsOf arg2).view.set]{fullShare} f) := by
  rw [pointsTo_rowsOf]
theorem rowsOf_out (c : Dev nD) (arg2 : Memref sig .tc .vmem S1x1024x4096 .f32) (f : Buf (Elt F) (arg2.view.loc (c : Thread nD τ))) :
    ((rowsOf arg2).view.loc (c : Thread nD τ) ↦[(rowsOf arg2).view.set]{fullShare} f : sProp 𝕄)
      ⊢ (arg2.view.loc (c : Thread nD τ) ↦[arg2.view.set]{fullShare} f) := by
  rw [pointsTo_rowsOf]

set_option maxHeartbeats 1000000 in
/-- The degree kernel's body run once on whole staging buffers, the weights' block at `x0` and the features' block at
    `x1`: it ends with both inputs as they were and each output buffer written with the listed pieces (the row
    scale as a column, and the scaled features). The piece lists are found by the run. -/
noncomputable def kernelRun0 (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole)
    (x0 : Vec F S1x1024x4096 .f32) (x1 : Vec F S1x1024x128 .f32) :
    Σ' (L2 : List (View.Piece (Elt F) S1x1024x1 .f32)), { L3 : List (View.Piece (Elt F) S1x1024x128 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0_dinv_kernel i arg2 harg2 arg3 harg3 arg4 harg4 arg5 harg5) K } := by
  refine ⟨?_, ?_, fun E K => ?run⟩
  case run =>
    simp only [cc0_dinv_kernel_eq_skeleton]; unfold cc0_dinv_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    ihave H0r := (rowsOf_in c arg2 _) $$ H0
    sl_exec
    sl_step
    ihave H0b := (rowsOf_out c arg2 _) $$ H0r
    iapply Hk
    isplitl [H0b]
    · iexists _; isplitr; · ipureintro; exact harg2.read_unread _
      iexact H0b
    isplitl [H1]
    · iexists _; isplitr; · ipureintro; exact harg3.read_unread _
      iexact H1
    isplitl [H2]; · iexists _; iexact H2
    iexists _; iexact H3

end Cert.Kernel.Hand

end
-- ==== Proof.BitsReg0.lean ====
/- The first kernel as one pipeline: what each window's staging buffer holds after the body at every grid point, and the body's obligation there. -/
import proofs.«100409_j75703093559638_2_alg».proof.Proof.Gen.Kernel.Launch
import proofs.«100409_j75703093559638_2_alg».proof.Proof.Gen.Kernel.Skeleton
import proofs.«100409_j75703093559638_2_alg».proof.Proof.Gen.Kernel.Points
import proofs.«100409_j75703093559638_2_alg».proof.Proof.Gen.Kernel.Loops
import proofs.«100409_j75703093559638_2_alg».proof.Proof.BitsRun0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of each output window, through which its contents are stated (the choice does not matter). -/
abbrev VO0_2 : View sig .tc .vmem S1x1024x1 .f32 := (Memref.whole cc0_stg2_0 : Memref sig .tc .vmem S1x1024x1 .f32).view
abbrev VO0_3 : View sig .tc .vmem S1x1024x128 .bf16 := (Memref.whole cc0_stg3_0 : Memref sig .tc .vmem S1x1024x128 .bf16).view
/-- Each window's current staging buffer at point `t`, and that it is a whole buffer. -/
abbrev ms0_0 (t : Fin cfg0.N) : Memref sig .tc .vmem S1x1024x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x128 .bf16 := win0_3.stage (cfg0.slots t 3)
abbrev hs0_3 (t : Fin cfg0.N) : (ms0_3 t).IsWhole := hstage0_3 ((cfg0.slots t 3).cast nbuf0_3)

/-- The body's one store into each output covers the output's whole block. -/
theorem cover0_2 (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole)
    (x0 : Vec F S1x1024x4096 .f32) (x1 : Vec F S1x1024x128 .f32) (y : S1x1024x1.Idx) :
    ∃ pc ∈ (kernelRun0 c i arg2 harg2 arg3 harg3 arg4 harg4 arg5 harg5 x0 x1).1, y ∈ pc.1.set :=
  View.cover_of_tiledL (kernelRun0 c i arg2 harg2 arg3 harg3 arg4 harg4 arg5 harg5 x0 x1).1 S1x1024x1.size (by sl_kernel_rfl) y
theorem cover0_3 (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole)
    (x0 : Vec F S1x1024x4096 .f32) (x1 : Vec F S1x1024x128 .f32) (y : S1x1024x128.Idx) :
    ∃ pc ∈ (kernelRun0 c i arg2 harg2 arg3 harg3 arg4 harg4 arg5 harg5 x0 x1).2.1, y ∈ pc.1.set :=
  View.cover_of_tiledL (kernelRun0 c i arg2 harg2 arg3 harg3 arg4 harg4 arg5 harg5 x0 x1).2.1 S1x1024x128.size (by sl_kernel_rfl) y

/-- What the body leaves in each output's staging buffer: its pieces read back. -/
def out0_2 (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole)
    (x0 : Vec F S1x1024x4096 .f32) (x1 : Vec F S1x1024x128 .f32) : Vec F S1x1024x1 .f32 :=
  VO0_2.read (Elt F) (VO0_2.writes (Elt F) VO0_2.junk (kernelRun0 c i arg2 harg2 arg3 harg3 arg4 harg4 arg5 harg5 x0 x1).1)
def out0_3 (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole)
    (x0 : Vec F S1x1024x4096 .f32) (x1 : Vec F S1x1024x128 .f32) : Vec F S1x1024x128 .bf16 :=
  VO0_3.read (Elt F) (VO0_3.writes (Elt F) VO0_3.junk (kernelRun0 c i arg2 harg2 arg3 harg3 arg4 harg4 arg5 harg5 x0 x1).2.1)

/-- The same at grid point `t`: the body run on the point's staging buffers and input blocks. -/
def outsAt0_2 (c : Dev nD) (t : Fin cfg0.N) : Vec F S1x1024x1 .f32 :=
  out0_2 c (grid0.coords t) (ms0_0 t) (hs0_0 t) (ms0_1 t) (hs0_1 t) (ms0_2 t) (hs0_2 t) (ms0_3 t) (hs0_3 t) (iblk0 V c 0 t) (iblk0 V c 1 t)
def outsAt0_3 (c : Dev nD) (t : Fin cfg0.N) : Vec F S1x1024x128 .bf16 :=
  out0_3 c (grid0.coords t) (ms0_0 t) (hs0_0 t) (ms0_1 t) (hs0_1 t) (ms0_2 t) (hs0_2 t) (ms0_3 t) (hs0_3 t) (iblk0 V c 0 t) (iblk0 V c 1 t)

/-- The pipeline's proof data: the arrays as the kernel finds them; after the body each input's buffer at its block
    and each output's at what the body left; the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0_2 V c t
    | ⟨3, _⟩ => outsAt0_3 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0_2 V c t := by dsimp only [dat0]
theorem after0_3 (c : Dev nD) (t : Fin cfg0.N) : (dat0 V c).after 3 t = outsAt0_3 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' buffers hold their blocks, so the run applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  unfold outsAt0_2 outsAt0_3
  unfold out0_2 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_2 c _ _ _ _ _ _ _ _ _ _ _)
  unfold owns; iexists _; isplitr
  swap; · iexact H3
  ipureintro; exact View.read_writes_of_cover _ _ _ _ _ (cover0_3 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.BitsRun1.lean ====
/- The second kernel's body on whole staging buffers: the five inputs' kept, the output's left with the pieces the body stored. -/
import proofs.«100409_j75703093559638_2_alg».proof.Proof.Gen.Kernel.Launch
import proofs.«100409_j75703093559638_2_alg».proof.Proof.Gen.Kernel.Skeleton
import proofs.«100409_j75703093559638_2_alg».proof.Proof.Gen.Kernel.Points
import proofs.«100409_j75703093559638_2_alg».proof.Proof.Gen.Kernel.Loops
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The propagation kernel's body run once on whole staging buffers — a strip of the weights at `x0`, the batch's
    scaled features at `x1`, the strip's row scales at `x2`, the transposed layer weights at `x3`, the bias row at
    `x4` —: it ends with the inputs as they were and the output buffer written with the listed pieces. The piece
    list is found by the run. -/
noncomputable def kernelRun1 (c : Dev nD) (i : grid1.Coords) (arg2 : Memref sig .tc .vmem S1x512x4096 .f32) (harg2 : arg2.IsWhole) (arg3 : Memref sig .tc .vmem S1x4096x128 .bf16) (harg3 : arg3.IsWhole) (arg4 : Memref sig .tc .vmem S1x512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x512x128 .f32) (harg7 : arg7.IsWhole)
    (x0 : Vec F S1x512x4096 .f32) (x1 : Vec F S1x4096x128 .bf16) (x2 : Vec F S1x512x1 .f32) (x3 : Vec F S128x128 .f32) (x4 : Vec F S1x128 .f32) :
    { L5 : List (View.Piece (Elt F) S1x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1_gcn_kernel i arg2 harg2 arg3 harg3 arg4 harg4 arg5 harg5 arg6 harg6 arg7 harg7) K } := by
  refine ⟨?_, fun E K => ?run⟩
  case run =>
    simp only [cc1_gcn_kernel_eq_skeleton]; unfold cc1_gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Hand

end
-- ==== Proof.BitsReg1.lean ====
/- The second kernel as one pipeline: what each window's staging buffer holds after the body at every grid point, and the body's obligation there. -/
import proofs.«100409_j75703093559638_2_alg».proof.Proof.Gen.Kernel.Launch
import proofs.«100409_j75703093559638_2_alg».proof.Proof.Gen.Kernel.Skeleton
import proofs.«100409_j75703093559638_2_alg».proof.Proof.Gen.Kernel.Points
import proofs.«100409_j75703093559638_2_alg».proof.Proof.Gen.Kernel.Loops
import proofs.«100409_j75703093559638_2_alg».proof.Proof.BitsRun1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, fetched there or not: where it is not
    fetched its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated (the choice does not matter). -/
abbrev VO1_5 : View sig .tc .vmem S1x512x128 .f32 := (Memref.whole cc1_stg5_0 : Memref sig .tc .vmem S1x512x128 .f32).view
/-- Each window's current staging buffer at point `t`, and that it is a whole buffer. -/
abbrev ms1_0 (t : Fin cfg1.N) : Memref sig .tc .vmem S1x512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x128 .f32 := win1_5.stage (cfg1.slots t 5)
abbrev hs1_5 (t : Fin cfg1.N) : (ms1_5 t).IsWhole := hstage1_5 ((cfg1.slots t 5).cast nbuf1_5)

/-- The body's one store into the output covers the output's whole block. -/
theorem cover1_5 (c : Dev nD) (i : grid1.Coords) (arg2 : Memref sig .tc .vmem S1x512x4096 .f32) (harg2 : arg2.IsWhole) (arg3 : Memref sig .tc .vmem S1x4096x128 .bf16) (harg3 : arg3.IsWhole) (arg4 : Memref sig .tc .vmem S1x512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x512x128 .f32) (harg7 : arg7.IsWhole)
    (x0 : Vec F S1x512x4096 .f32) (x1 : Vec F S1x4096x128 .bf16) (x2 : Vec F S1x512x1 .f32) (x3 : Vec F S128x128 .f32) (x4 : Vec F S1x128 .f32) (y : S1x512x128.Idx) :
    ∃ pc ∈ (kernelRun1 c i arg2 harg2 arg3 harg3 arg4 harg4 arg5 harg5 arg6 harg6 arg7 harg7 x0 x1 x2 x3 x4).1, y ∈ pc.1.set :=
  View.cover_of_tiledL (kernelRun1 c i arg2 harg2 arg3 harg3 arg4 harg4 arg5 harg5 arg6 harg6 arg7 harg7 x0 x1 x2 x3 x4).1 S1x512x128.size (by sl_kernel_rfl) y

/-- What the body leaves in the output's staging buffer: its pieces read back. -/
def out1_5 (c : Dev nD) (i : grid1.Coords) (arg2 : Memref sig .tc .vmem S1x512x4096 .f32) (harg2 : arg2.IsWhole) (arg3 : Memref sig .tc .vmem S1x4096x128 .bf16) (harg3 : arg3.IsWhole) (arg4 : Memref sig .tc .vmem S1x512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x512x128 .f32) (harg7 : arg7.IsWhole)
    (x0 : Vec F S1x512x4096 .f32) (x1 : Vec F S1x4096x128 .bf16) (x2 : Vec F S1x512x1 .f32) (x3 : Vec F S128x128 .f32) (x4 : Vec F S1x128 .f32) : Vec F S1x512x128 .f32 :=
  VO1_5.read (Elt F) (VO1_5.writes (Elt F) VO1_5.junk (kernelRun1 c i arg2 harg2 arg3 harg3 arg4 harg4 arg5 harg5 arg6 harg6 arg7 harg7 x0 x1 x2 x3 x4).1)

/-- The same at grid point `t`: the body run on the point's staging buffers and input blocks. -/
def outsAt1_5 (c : Dev nD) (t : Fin cfg1.N) : Vec F S1x512x128 .f32 :=
  out1_5 c (grid1.coords t) (ms1_0 t) (hs1_0 t) (ms1_1 t) (hs1_1 t) (ms1_2 t) (hs1_2 t) (ms1_3 t) (hs1_3 t) (ms1_4 t) (hs1_4 t) (ms1_5 t) (hs1_5 t)
    (iblk1 V c 0 t) (iblk1 V c 1 t) (iblk1 V c 2 t) (iblk1 V c 3 t) (iblk1 V c 4 t)

/-- The pipeline's proof data: the arrays as the kernel finds them; after the body each input's buffer at its block
    and the output's at what the body left; the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outsAt1_5 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outsAt1_5 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

/-- The body at any point: the inputs' buffers hold their blocks, so the run applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold outsAt1_5
  unfold out1_5
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.BitsFrame.lean ====
/- The whole program's run: the first kernel, the two host operations, the second kernel, as segments over the
   buffers' contents at each boundary; from it, every unscoped buffer's final contents, and the frame. -/
import proofs.«100409_j75703093559638_2_alg».proof.Proof.Gen.Kernel.Launch
import proofs.«100409_j75703093559638_2_alg».proof.Proof.Gen.Kernel.Skeleton
import proofs.«100409_j75703093559638_2_alg».proof.Proof.Gen.Kernel.Points
import proofs.«100409_j75703093559638_2_alg».proof.Proof.Gen.Kernel.Loops
import proofs.«100409_j75703093559638_2_alg».proof.Proof.BitsReg0
import proofs.«100409_j75703093559638_2_alg».proof.Proof.BitsReg1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first kernel's entry). -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the first kernel: its arrays at what its write-backs leave, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two host operations (the second kernel's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second kernel. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The host operations write neither an argument nor a kernel result. -/
theorem W2_of_not_written (c : Dev nD) (b : Ref sig .tc) (h1 : b ≠ main_v1) (h2 : b ≠ main_v2) :
    W2 m c (Proc.devRef .tc b) = W1 m c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h1, StableHlo.devRef_ne_of_ne h2⟩))

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_not_written m c main_arg0 (by decide) (by decide)
    _ = W0 m c (Proc.devRef .tc main_arg0) := (W1_arr m c 1).trans (((dat0 (V0 m) c).arrAt_in 1 rfl _).trans (A_eq0 (V0 m) c 1))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := W2_of_not_written m c main_arg1 (by decide) (by decide)
    _ = W0 m c (Proc.devRef .tc main_arg1) := (W1_arr m c 0).trans (((dat0 (V0 m) c).arrAt_in 0 rfl _).trans (A_eq0 (V0 m) c 0))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_not_written m c main_arg2 (by decide) (by decide)
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_not_written m c main_arg3 (by decide) (by decide)
    _ = W0 m c (Proc.devRef .tc main_arg3) := W1_of_ne m c main_arg3 (by decide)
    _ = m ((c : Thread nD τ).loc main_arg3) := rfl

/-! ## The proof data family and the thread state -/

abbrev adm : (p : Fin 2) → (pcfgs (F := F) p).Adm := fun p => (cfgs p).toPCfg_adm
/-- Each pipeline's proof data at its kernel's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- The first kernel over the thread state: entered with every unscoped buffer at its launch contents, left with its
    two result arrays at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered with every unscoped buffer at its contents after the host
    operations, left with the result array at what the write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh' (W1 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Hand

end
-- ==== Proof.IdealRun0.lean ====
/- The first kernel's body on whole staging buffers: the two inputs' kept, each output's left with the pieces the body stored. -/
import proofs.«100409_j75703093559638_2_alg».proof.Proof.Gen.KernelIdeal.Launch
import proofs.«100409_j75703093559638_2_alg».proof.Proof.Gen.KernelIdeal.Skeleton
import proofs.«100409_j75703093559638_2_alg».proof.Proof.Gen.KernelIdeal.Points
import proofs.«100409_j75703093559638_2_alg».proof.Proof.Gen.KernelIdeal.Loops
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weights' staging buffer seen as a matrix of 1024 rows: the view the row-sum loop loads its chunks through. -/
abbrev rowsOf (arg2 : Memref sig .tc .vmem S1x1024x4096 .f32) : Memref sig .tc .vmem S1024x4096 .f32 :=
  (arg2.slice (Rect.unit (s := S1x1024x4096) ![0, 0, 0] S1x1024x4096.size inb_S1x1024x4096_S1x1024x4096_0_0_0) (fun _ => rfl)).squeeze S1024x4096 squeezes_S1x1024x4096_S1024x4096

/-- Dropping the leading unit axis of the whole buffer keeps its set of elements. -/
theorem set_rowsOf (arg2 : Memref sig .tc .vmem S1x1024x4096 .f32) : (rowsOf arg2).view.set = arg2.view.set := by
  rw [Memref.set_view_squeeze]
  show (arg2.view.slice _).set = _
  rw [View.set_slice]
  show _ = Finset.univ.map arg2.view.emb
  refine congrArg (fun S => Finset.map arg2.view.emb S) ?_
  exact Finset.eq_univ_iff_forall.mpr (View.mem_set_unit_zero (funext fun a => by match a with | ⟨0, _⟩ => rfl | ⟨1, _⟩ => rfl | ⟨2, _⟩ => rfl) _)

/-- So holding the buffer's elements is holding the matrix view's elements, at the same contents. -/
theorem pointsTo_rowsOf (c : Dev nD) (arg2 : Memref sig .tc .vmem S1x1024x4096 .f32) (f : Buf (Elt F) (arg2.view.loc (c : Thread nD τ))) :
    (arg2.view.loc (c : Thread nD τ) ↦[arg2.view.set]{fullShare} f : sProp 𝕄)
      = ((rowsOf arg2).view.loc (c : Thread nD τ) ↦[(rowsOf arg2).view.set]{fullShare} f) := by
  rw [set_rowsOf]

theorem rowsOf_in (c : Dev nD) (arg2 : Memref sig .tc .vmem S1x1024x4096 .f32) (f : Buf (Elt F) (arg2.view.loc (c : Thread nD τ))) :
    (arg2.view.loc (c : Thread nD τ) ↦[arg2.view.set]{fullShare} f : sProp 𝕄)
      ⊢ ((rowsOf arg2).view.loc (c : Thread nD τ) ↦[(rowsOf arg2).view.set]{fullShare} f) := by
  rw [pointsTo_rowsOf]
theorem rowsOf_out (c : Dev nD) (arg2 : Memref sig .tc .vmem S1x1024x4096 .f32) (f : Buf (Elt F) (arg2.view.loc (c : Thread nD τ))) :
    ((rowsOf arg2).view.loc (c : Thread nD τ) ↦[(rowsOf arg2).view.set]{fullShare} f : sProp 𝕄)
      ⊢ (arg2.view.loc (c : Thread nD τ) ↦[arg2.view.set]{fullShare} f) := by
  rw [pointsTo_rowsOf]

set_option maxHeartbeats 1000000 in
/-- The degree kernel's body run once on whole staging buffers, the weights' block at `x0` and the features' block at
    `x1`: it ends with both inputs as they were and each output buffer written with the listed pieces (the row
    scale as a column, and the scaled features). The piece lists are found by the run. -/
noncomputable def kernelRun0 (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole)
    (x0 : Vec F S1x1024x4096 .f32) (x1 : Vec F S1x1024x128 .f32) :
    Σ' (L2 : List (View.Piece (Elt F) S1x1024x1 .f32)), { L3 : List (View.Piece (Elt F) S1x1024x128 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0_dinv_kernel i arg2 harg2 arg3 harg3 arg4 harg4 arg5 harg5) K } := by
  refine ⟨?_, ?_, fun E K => ?run⟩
  case run =>
    simp only [cc0_dinv_kernel_eq_skeleton]; unfold cc0_dinv_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    ihave H0r := (rowsOf_in c arg2 _) $$ H0
    sl_exec
    sl_step
    ihave H0b := (rowsOf_out c arg2 _) $$ H0r
    iapply Hk
    isplitl [H0b]
    · iexists _; isplitr; · ipureintro; exact harg2.read_unread _
      iexact H0b
    isplitl [H1]
    · iexists _; isplitr; · ipureintro; exact harg3.read_unread _
      iexact H1
    isplitl [H2]; · iexists _; iexact H2
    iexists _; iexact H3

end Cert.KernelIdeal.Hand

end
-- ==== Proof.IdealReg0.lean ====
/- The first kernel as one pipeline: what each window's staging buffer holds after the body at every grid point, and the body's obligation there. -/
import proofs.«100409_j75703093559638_2_alg».proof.Proof.Gen.KernelIdeal.Launch
import proofs.«100409_j75703093559638_2_alg».proof.Proof.Gen.KernelIdeal.Skeleton
import proofs.«100409_j75703093559638_2_alg».proof.Proof.Gen.KernelIdeal.Points
import proofs.«100409_j75703093559638_2_alg».proof.Proof.Gen.KernelIdeal.Loops
import proofs.«100409_j75703093559638_2_alg».proof.Proof.IdealRun0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of each output window, through which its contents are stated (the choice does not matter). -/
abbrev VO0_2 : View sig .tc .vmem S1x1024x1 .f32 := (Memref.whole cc0_stg2_0 : Memref sig .tc .vmem S1x1024x1 .f32).view
abbrev VO0_3 : View sig .tc .vmem S1x1024x128 .bf16 := (Memref.whole cc0_stg3_0 : Memref sig .tc .vmem S1x1024x128 .bf16).view
/-- Each window's current staging buffer at point `t`, and that it is a whole buffer. -/
abbrev ms0_0 (t : Fin cfg0.N) : Memref sig .tc .vmem S1x1024x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x128 .bf16 := win0_3.stage (cfg0.slots t 3)
abbrev hs0_3 (t : Fin cfg0.N) : (ms0_3 t).IsWhole := hstage0_3 ((cfg0.slots t 3).cast nbuf0_3)

/-- The body's one store into each output covers the output's whole block. -/
theorem cover0_2 (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole)
    (x0 : Vec F S1x1024x4096 .f32) (x1 : Vec F S1x1024x128 .f32) (y : S1x1024x1.Idx) :
    ∃ pc ∈ (kernelRun0 c i arg2 harg2 arg3 harg3 arg4 harg4 arg5 harg5 x0 x1).1, y ∈ pc.1.set :=
  View.cover_of_tiledL (kernelRun0 c i arg2 harg2 arg3 harg3 arg4 harg4 arg5 harg5 x0 x1).1 S1x1024x1.size (by sl_kernel_rfl) y
theorem cover0_3 (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole)
    (x0 : Vec F S1x1024x4096 .f32) (x1 : Vec F S1x1024x128 .f32) (y : S1x1024x128.Idx) :
    ∃ pc ∈ (kernelRun0 c i arg2 harg2 arg3 harg3 arg4 harg4 arg5 harg5 x0 x1).2.1, y ∈ pc.1.set :=
  View.cover_of_tiledL (kernelRun0 c i arg2 harg2 arg3 harg3 arg4 harg4 arg5 harg5 x0 x1).2.1 S1x1024x128.size (by sl_kernel_rfl) y

/-- What the body leaves in each output's staging buffer: its pieces read back. -/
def out0_2 (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole)
    (x0 : Vec F S1x1024x4096 .f32) (x1 : Vec F S1x1024x128 .f32) : Vec F S1x1024x1 .f32 :=
  VO0_2.read (Elt F) (VO0_2.writes (Elt F) VO0_2.junk (kernelRun0 c i arg2 harg2 arg3 harg3 arg4 harg4 arg5 harg5 x0 x1).1)
def out0_3 (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole)
    (x0 : Vec F S1x1024x4096 .f32) (x1 : Vec F S1x1024x128 .f32) : Vec F S1x1024x128 .bf16 :=
  VO0_3.read (Elt F) (VO0_3.writes (Elt F) VO0_3.junk (kernelRun0 c i arg2 harg2 arg3 harg3 arg4 harg4 arg5 harg5 x0 x1).2.1)

/-- The same at grid point `t`: the body run on the point's staging buffers and input blocks. -/
def outsAt0_2 (c : Dev nD) (t : Fin cfg0.N) : Vec F S1x1024x1 .f32 :=
  out0_2 c (grid0.coords t) (ms0_0 t) (hs0_0 t) (ms0_1 t) (hs0_1 t) (ms0_2 t) (hs0_2 t) (ms0_3 t) (hs0_3 t) (iblk0 V c 0 t) (iblk0 V c 1 t)
def outsAt0_3 (c : Dev nD) (t : Fin cfg0.N) : Vec F S1x1024x128 .bf16 :=
  out0_3 c (grid0.coords t) (ms0_0 t) (hs0_0 t) (ms0_1 t) (hs0_1 t) (ms0_2 t) (hs0_2 t) (ms0_3 t) (hs0_3 t) (iblk0 V c 0 t) (iblk0 V c 1 t)

/-- The pipeline's proof data: the arrays as the kernel finds them; after the body each input's buffer at its block
    and each output's at what the body left; the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0_2 V c t
    | ⟨3, _⟩ => outsAt0_3 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0_2 V c t := by dsimp only [dat0]
theorem after0_3 (c : Dev nD) (t : Fin cfg0.N) : (dat0 V c).after 3 t = outsAt0_3 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' buffers hold their blocks, so the run applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  unfold outsAt0_2 outsAt0_3
  unfold out0_2 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_2 c _ _ _ _ _ _ _ _ _ _ _)
  unfold owns; iexists _; isplitr
  swap; · iexact H3
  ipureintro; exact View.read_writes_of_cover _ _ _ _ _ (cover0_3 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.IdealRun1.lean ====
/- The second kernel's body on whole staging buffers: the five inputs' kept, the output's left with the pieces the body stored. -/
import proofs.«100409_j75703093559638_2_alg».proof.Proof.Gen.KernelIdeal.Launch
import proofs.«100409_j75703093559638_2_alg».proof.Proof.Gen.KernelIdeal.Skeleton
import proofs.«100409_j75703093559638_2_alg».proof.Proof.Gen.KernelIdeal.Points
import proofs.«100409_j75703093559638_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The propagation kernel's body run once on whole staging buffers — a strip of the weights at `x0`, the batch's
    scaled features at `x1`, the strip's row scales at `x2`, the transposed layer weights at `x3`, the bias row at
    `x4` —: it ends with the inputs as they were and the output buffer written with the listed pieces. The piece
    list is found by the run. -/
noncomputable def kernelRun1 (c : Dev nD) (i : grid1.Coords) (arg2 : Memref sig .tc .vmem S1x512x4096 .f32) (harg2 : arg2.IsWhole) (arg3 : Memref sig .tc .vmem S1x4096x128 .bf16) (harg3 : arg3.IsWhole) (arg4 : Memref sig .tc .vmem S1x512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x512x128 .f32) (harg7 : arg7.IsWhole)
    (x0 : Vec F S1x512x4096 .f32) (x1 : Vec F S1x4096x128 .bf16) (x2 : Vec F S1x512x1 .f32) (x3 : Vec F S128x128 .f32) (x4 : Vec F S1x128 .f32) :
    { L5 : List (View.Piece (Elt F) S1x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1_gcn_kernel i arg2 harg2 arg3 harg3 arg4 harg4 arg5 harg5 arg6 harg6 arg7 harg7) K } := by
  refine ⟨?_, fun E K => ?run⟩
  case run =>
    simp only [cc1_gcn_kernel_eq_skeleton]; unfold cc1_gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Hand

end
-- ==== Proof.IdealReg1.lean ====
/- The second kernel as one pipeline: what each window's staging buffer holds after the body at every grid point, and the body's obligation there. -/
import proofs.«100409_j75703093559638_2_alg».proof.Proof.Gen.KernelIdeal.Launch
import proofs.«100409_j75703093559638_2_alg».proof.Proof.Gen.KernelIdeal.Skeleton
import proofs.«100409_j75703093559638_2_alg».proof.Proof.Gen.KernelIdeal.Points
import proofs.«100409_j75703093559638_2_alg».proof.Proof.Gen.KernelIdeal.Loops
import proofs.«100409_j75703093559638_2_alg».proof.Proof.IdealRun1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, fetched there or not: where it is not
    fetched its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated (the choice does not matter). -/
abbrev VO1_5 : View sig .tc .vmem S1x512x128 .f32 := (Memref.whole cc1_stg5_0 : Memref sig .tc .vmem S1x512x128 .f32).view
/-- Each window's current staging buffer at point `t`, and that it is a whole buffer. -/
abbrev ms1_0 (t : Fin cfg1.N) : Memref sig .tc .vmem S1x512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x128 .f32 := win1_5.stage (cfg1.slots t 5)
abbrev hs1_5 (t : Fin cfg1.N) : (ms1_5 t).IsWhole := hstage1_5 ((cfg1.slots t 5).cast nbuf1_5)

/-- The body's one store into the output covers the output's whole block. -/
theorem cover1_5 (c : Dev nD) (i : grid1.Coords) (arg2 : Memref sig .tc .vmem S1x512x4096 .f32) (harg2 : arg2.IsWhole) (arg3 : Memref sig .tc .vmem S1x4096x128 .bf16) (harg3 : arg3.IsWhole) (arg4 : Memref sig .tc .vmem S1x512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x512x128 .f32) (harg7 : arg7.IsWhole)
    (x0 : Vec F S1x512x4096 .f32) (x1 : Vec F S1x4096x128 .bf16) (x2 : Vec F S1x512x1 .f32) (x3 : Vec F S128x128 .f32) (x4 : Vec F S1x128 .f32) (y : S1x512x128.Idx) :
    ∃ pc ∈ (kernelRun1 c i arg2 harg2 arg3 harg3 arg4 harg4 arg5 harg5 arg6 harg6 arg7 harg7 x0 x1 x2 x3 x4).1, y ∈ pc.1.set :=
  View.cover_of_tiledL (kernelRun1 c i arg2 harg2 arg3 harg3 arg4 harg4 arg5 harg5 arg6 harg6 arg7 harg7 x0 x1 x2 x3 x4).1 S1x512x128.size (by sl_kernel_rfl) y

/-- What the body leaves in the output's staging buffer: its pieces read back. -/
def out1_5 (c : Dev nD) (i : grid1.Coords) (arg2 : Memref sig .tc .vmem S1x512x4096 .f32) (harg2 : arg2.IsWhole) (arg3 : Memref sig .tc .vmem S1x4096x128 .bf16) (harg3 : arg3.IsWhole) (arg4 : Memref sig .tc .vmem S1x512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x512x128 .f32) (harg7 : arg7.IsWhole)
    (x0 : Vec F S1x512x4096 .f32) (x1 : Vec F S1x4096x128 .bf16) (x2 : Vec F S1x512x1 .f32) (x3 : Vec F S128x128 .f32) (x4 : Vec F S1x128 .f32) : Vec F S1x512x128 .f32 :=
  VO1_5.read (Elt F) (VO1_5.writes (Elt F) VO1_5.junk (kernelRun1 c i arg2 harg2 arg3 harg3 arg4 harg4 arg5 harg5 arg6 harg6 arg7 harg7 x0 x1 x2 x3 x4).1)

/-- The same at grid point `t`: the body run on the point's staging buffers and input blocks. -/
def outsAt1_5 (c : Dev nD) (t : Fin cfg1.N) : Vec F S1x512x128 .f32 :=
  out1_5 c (grid1.coords t) (ms1_0 t) (hs1_0 t) (ms1_1 t) (hs1_1 t) (ms1_2 t) (hs1_2 t) (ms1_3 t) (hs1_3 t) (ms1_4 t) (hs1_4 t) (ms1_5 t) (hs1_5 t)
    (iblk1 V c 0 t) (iblk1 V c 1 t) (iblk1 V c 2 t) (iblk1 V c 3 t) (iblk1 V c 4 t)

/-- The pipeline's proof data: the arrays as the kernel finds them; after the body each input's buffer at its block
    and the output's at what the body left; the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outsAt1_5 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outsAt1_5 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

/-- The body at any point: the inputs' buffers hold their blocks, so the run applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold outsAt1_5
  unfold out1_5
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.IdealFrame.lean ====
/- The whole program's run: the first kernel, the two host operations, the second kernel, as segments over the
   buffers' contents at each boundary; from it, every unscoped buffer's final contents, and the frame. -/
import proofs.«100409_j75703093559638_2_alg».proof.Proof.Gen.KernelIdeal.Launch
import proofs.«100409_j75703093559638_2_alg».proof.Proof.Gen.KernelIdeal.Skeleton
import proofs.«100409_j75703093559638_2_alg».proof.Proof.Gen.KernelIdeal.Points
import proofs.«100409_j75703093559638_2_alg».proof.Proof.Gen.KernelIdeal.Loops
import proofs.«100409_j75703093559638_2_alg».proof.Proof.IdealReg0
import proofs.«100409_j75703093559638_2_alg».proof.Proof.IdealReg1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first kernel's entry). -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the first kernel: its arrays at what its write-backs leave, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two host operations (the second kernel's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second kernel. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The host operations write neither an argument nor a kernel result. -/
theorem W2_of_not_written (c : Dev nD) (b : Ref sig .tc) (h1 : b ≠ main_v1) (h2 : b ≠ main_v2) :
    W2 m c (Proc.devRef .tc b) = W1 m c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h1, StableHlo.devRef_ne_of_ne h2⟩))

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_not_written m c main_arg0 (by decide) (by decide)
    _ = W0 m c (Proc.devRef .tc main_arg0) := (W1_arr m c 1).trans (((dat0 (V0 m) c).arrAt_in 1 rfl _).trans (A_eq0 (V0 m) c 1))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := W2_of_not_written m c main_arg1 (by decide) (by decide)
    _ = W0 m c (Proc.devRef .tc main_arg1) := (W1_arr m c 0).trans (((dat0 (V0 m) c).arrAt_in 0 rfl _).trans (A_eq0 (V0 m) c 0))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_not_written m c main_arg2 (by decide) (by decide)
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_not_written m c main_arg3 (by decide) (by decide)
    _ = W0 m c (Proc.devRef .tc main_arg3) := W1_of_ne m c main_arg3 (by decide)
    _ = m ((c : Thread nD τ).loc main_arg3) := rfl

/-! ## The proof data family and the thread state -/

abbrev adm : (p : Fin 2) → (pcfgs (F := F) p).Adm := fun p => (cfgs p).toPCfg_adm
/-- Each pipeline's proof data at its kernel's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- The first kernel over the thread state: entered with every unscoped buffer at its launch contents, left with its
    two result arrays at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered with every unscoped buffer at its contents after the host
    operations, left with the result array at what the write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh' (W1 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Hand

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.LibWordsAt.lean ====
/-
  Words and bits read at an index, and two float words as extended reals.

  The integer operations of a vector (and, exclusive or, sum, comparison) read at an index are the word
  operations on the entries; a select between equal conditions and equal branches is equal; the 32-bit float
  word of 1.0 denotes the extended real 1 and the word of −∞ denotes the bottom element.
-/
import Idealize.ShloMosaic.Lib.ValueIdx
import Idealize.ShloMosaic.PureOps.Ideal.Laws

noncomputable section

namespace Idealize.ShloMosaic.WordsAt

open Idealize.ShloMosaic

variable {s : Shape} {w : Nat}

/-- A vector's bitwise and at an index is the and of the entries. -/
theorem andi_apply (x y : IVec s w) (i : s.Idx) : andi x y i = IntOp.andi (x i) (y i) := rfl
/-- A vector's exclusive or at an index is the exclusive or of the entries. -/
theorem xori_apply (x y : IVec s w) (i : s.Idx) : xori x y i = IntOp.xori (x i) (y i) := rfl
/-- A vector's integer sum at an index is the sum of the entries. -/
theorem addi_apply (x y : IVec s w) (i : s.Idx) : addi x y i = IntOp.addi (x i) (y i) := rfl
/-- A vector's integer comparison at an index compares the entries. -/
theorem cmpi_apply (p : CmpIPredicate) (x y : IVec s w) (i : s.Idx) : cmpi p x y i = IntOp.cmpi p (x i) (y i) := rfl

/-- Selects with equal conditions and equal branches are equal. -/
theorem select_congr {α : Type} {c c' : BitVec 1} {a a' b b' : α} (hc : c = c') (ha : a = a') (hb : b = b') :
    Scalar.select c a b = Scalar.select c' a' b' := by rw [hc, ha, hb]

/-- The 32-bit float word of 1.0 denotes 1. -/
theorem ofBits_one_f32 : Ideal.ofBits .f32 0x3F800000#32 = 1 := by
  simp [Ideal.ofBits, Ideal.ieee]
  first
    | (rw [← EReal.coe_mul]; norm_num; done)
    | (norm_num [← EReal.coe_mul]; done)

/-- The 32-bit float word of −∞ denotes the bottom element. -/
theorem ofBits_neg_inf_f32 : Ideal.ofBits .f32 0xFF800000#32 = ⊥ := by simp [Ideal.ofBits, Ideal.ieee]

end Idealize.ShloMosaic.WordsAt

end
-- ==== Proof.PayAt0.lean ====
/-
  The first kernel body's arithmetic read at an index, over the extended reals.

  The body sums each row of the adjacency block in chunks of 512 columns into a column of running totals
  that starts at zero, adds one to each total, takes the inverse square root where the result is positive
  and zero elsewhere, and scales each row of the feature block by its row's value. Each statement below reads
  one of these steps at a row p (and a column q): the zero start, one chunk's contribution, the guarded
  inverse square root, its view with a leading unit axis, and the scaled feature block.
-/
import proofs.«100409_j75703093559638_2_alg».proof.Proof.Gen.KernelIdeal.Skeleton
import proofs.«100409_j75703093559638_2_alg».proof.Proof.LibRowOps
import proofs.«100409_j75703093559638_2_alg».proof.Proof.LibWordsAt
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

/-- The running totals start at zero. -/
theorem k0_pay1_apply (p : Fin 1024) : k0_pay1 (F := Ideal) (ix2 p 0) = 0 := by
  unfold k0_pay1
  exact Ideal.ofBits_zero_f32

/-- One chunk adds, to row p's running total, the sum of the chunk's 512 entries of that row. -/
theorem k0_pay2_apply (acc : FVec Ideal S1024x1 .f32) (v26 : Vec Ideal S1024x512 .f32) (p : Fin 1024) :
    k0_pay2 (F := Ideal) acc v26 (ix2 p 0) = acc (ix2 p 0) + ∑ j : Fin 512, v26 (ix2 p j) := by
  unfold k0_pay2
  refine (addf_apply _ _ _).trans ?_
  refine congrArg (fun t => acc (ix2 p 0) + t) ?_
  refine (RowOps.colCast_apply _ _ p).trans ?_
  exact RowOps.rowSum_vector v26 _ _ _ _ p

/-- The comparison "greater than zero" as a bit, decided. -/
theorem cmp_ogt_zero_of_pos {x : EReal} (h : 0 < x) : Ideal.cmp .ogt x 0 = 1#1 := by
  show BitVec.ofBool (decide (0 < x)) = 1#1
  rw [decide_eq_true h]; rfl

theorem cmp_ogt_zero_of_not_pos {x : EReal} (h : ¬ 0 < x) : Ideal.cmp .ogt x 0 = 0#1 := by
  show BitVec.ofBool (decide (0 < x)) = 0#1
  rw [decide_eq_false h]; rfl

/-- The guarded inverse square root of a total plus one: taken where the sum is positive, zero elsewhere. -/
theorem k0_pay3_apply (v2 : FVec Ideal S1024x1 .f32) (p : Fin 1024) :
    k0_pay3 (F := Ideal) v2 (ix2 p 0) = if 0 < v2 (ix2 p 0) + 1 then Ideal.rsqrt (v2 (ix2 p 0) + 1) else 0 := by
  unfold k0_pay3
  show Scalar.select (Ideal.cmp .ogt (v2 (ix2 p 0) + Ideal.ofBits .f32 0x3F800000#32) (Ideal.ofBits .f32 0x00000000#32))
      (Ideal.rsqrt (v2 (ix2 p 0) + Ideal.ofBits .f32 0x3F800000#32)) (Ideal.ofBits .f32 0x00000000#32) = _
  rw [WordsAt.ofBits_one_f32, Ideal.ofBits_zero_f32]
  by_cases h : 0 < v2 (ix2 p 0) + 1
  · rw [if_pos h, cmp_ogt_zero_of_pos h, select_one]
  · rw [if_neg h, cmp_ogt_zero_of_not_pos h, select_zero]

/-- The same column with a leading unit axis. -/
theorem k0_pay4_apply (v2 : FVec Ideal S1024x1 .f32) (p : Fin 1024) :
    k0_pay4 (F := Ideal) v2 (ix3 0 p 0) = k0_pay3 (F := Ideal) v2 (ix2 p 0) := by
  unfold k0_pay4
  exact shapeCast_ab_1ab_apply (k0_pay3 (F := Ideal) v2) _ 0 p 0

/-- The feature block scaled row by row: entry (p, q) is row p's value times the block's entry (p, q). -/
theorem k0_pay5_apply (v2 : FVec Ideal S1024x1 .f32) (v13 : Vec Ideal S1x1024x128 .f32) (p : Fin 1024) (q : Fin 128) :
    k0_pay5 (F := Ideal) v2 v13 (ix3 0 p q) = k0_pay3 (F := Ideal) v2 (ix2 p 0) * v13 (ix3 0 p q) := by
  unfold k0_pay5
  refine (shapeCast_ab_1ab_apply _ _ 0 p q).trans ?_
  refine (truncf_apply (φ := .f32) (ψ := .bf16) _ _ _).trans ?_
  refine (mulf_apply _ _ _).trans ?_
  exact congrArg₂ (fun s t : EReal => s * t)
    (RowOps.colBcast_apply (k0_pay3 (F := Ideal) v2) _ p q)
    (shapeCast_1ab_ab_apply v13 _ p q)

end Cert.KernelIdeal.PayAt

end
-- ==== Proof.LibTileSum.lean ====
/-
  A sum over N = T·W consecutive positions, taken tile by tile.

  The positions 0 … N−1 split into T tiles of W consecutive positions each; position w of tile k is W·k + w.
  In any commutative monoid the sum over all positions is the sum over the tiles of each tile's sum. A running
  total that starts from a value z and adds one tile's sum per step therefore ends, after all T steps, at z plus
  the whole sum. Tile numbers are also taken as plain naturals (the position then wraps around past the last
  tile, where it is never used), so that a running total can be stated over an initial segment of the naturals.
-/
import Idealize.ShloMosaic.Lib.ValueIdx

open scoped BigOperators

namespace Idealize.ShloMosaic.TileSum

/-- Position `w` of tile `k` among `N = T·W` positions. -/
def pos {T W N : ℕ} (hN : T * W = N) (k : Fin T) (w : Fin W) : Fin N :=
  ⟨W * k.val + w.val, by
    have hk := k.isLt
    have hw := w.isLt
    calc W * k.val + w.val < W * k.val + W := by omega
      _ = W * (k.val + 1) := by ring
      _ ≤ W * T := Nat.mul_le_mul_left _ hk
      _ = N := by rw [Nat.mul_comm]; exact hN⟩

/-- The sum over all positions is the sum over the tiles of each tile's sum. -/
theorem sum_tiles {M : Type*} [AddCommMonoid M] {T W N : ℕ} (hN : T * W = N) (g : Fin N → M) :
    ∑ f : Fin N, g f = ∑ k : Fin T, ∑ w : Fin W, g (pos hN k w) := by
  subst hN
  rw [← Equiv.sum_comp finProdFinEquiv g, Fintype.sum_prod_type]
  refine Finset.sum_congr rfl fun k _ => Finset.sum_congr rfl fun w _ => congrArg g (Fin.ext ?_)
  show w.val + W * k.val = W * k.val + w.val
  exact Nat.add_comm _ _

/-- Position `w` of the tile numbered `j`, for any natural `j`. -/
def posN {W N : ℕ} (hpos : 0 < N) (j : ℕ) (w : Fin W) : Fin N :=
  ⟨(W * j + w.val) % N, Nat.mod_lt _ hpos⟩

/-- For a tile number below `T` it is that tile's position. -/
theorem posN_eq {T W N : ℕ} (hN : T * W = N) (hpos : 0 < N) (k : Fin T) (w : Fin W) :
    posN hpos k.val w = pos hN k w :=
  Fin.ext (Nat.mod_eq_of_lt (pos hN k w).isLt)

/-- Its value, for a tile number below `T`. -/
theorem posN_val {T W N : ℕ} (hN : T * W = N) (hpos : 0 < N) (j : ℕ) (hj : j < T) (w : Fin W) :
    (posN hpos j w : Fin N).val = W * j + w.val :=
  congrArg Fin.val (posN_eq hN hpos ⟨j, hj⟩ w)

/-- The tiles numbered below `T`, summed, give the whole sum. -/
theorem sum_range_tiles {M : Type*} [AddCommMonoid M] {T W N : ℕ} (hN : T * W = N) (hpos : 0 < N) (g : Fin N → M) :
    ∑ j ∈ Finset.range T, ∑ w : Fin W, g (posN hpos j w) = ∑ f : Fin N, g f := by
  rw [Finset.sum_range, sum_tiles hN g]
  exact Finset.sum_congr rfl fun k _ => Finset.sum_congr rfl fun w _ => congrArg g (posN_eq hN hpos k w)

/-- A running total: what is there after the steps below `n`, plus step `n`'s addend, is what is there after the
    steps below `n + 1`. -/
theorem run_succ {M : Type*} [AddCommMonoid M] (z : M) (a : ℕ → M) (n : ℕ) :
    (z + ∑ j ∈ Finset.range n, a j) + a n = z + ∑ j ∈ Finset.range (n + 1), a j := by
  rw [Finset.sum_range_succ, add_assoc]

/-- A running total after its first step. -/
theorem run_one {M : Type*} [AddCommMonoid M] (z : M) (a : ℕ → M) :
    z + a 0 = z + ∑ j ∈ Finset.range 1, a j := by
  rw [Finset.sum_range_one]

end Idealize.ShloMosaic.TileSum
-- ==== Proof.IdealBody0.lean ====
/-
  The first kernel body's results as functions of its two input blocks, over the extended reals.

  The body's loop carries a column of running row sums through eight trips, each adding the sums of one
  chunk of 512 columns of the weights' block; after the loop the column holds each row's whole sum. The row
  scale stored is the guarded inverse square root of that sum plus one, and the scaled features stored are the
  features' block with each row multiplied by its row's scale.
-/
import proofs.«100409_j75703093559638_2_alg».proof.Proof.IdealReg0
import proofs.«100409_j75703093559638_2_alg».proof.Proof.PayAt0
import proofs.«100409_j75703093559638_2_alg».proof.Proof.LibTileSum

set_option maxRecDepth 65536

noncomputable section

open scoped BigOperators

namespace Cert.KernelIdeal.HandValue

open Cert.KernelIdeal Cert.KernelIdeal.Gen Cert.KernelIdeal.Hand Cert.KernelIdeal.PayAt
open Idealize.ShloMosaic Idealize.ShloMosaic.ValueIdx

section Generic

variable {F : FTy → Type} [FloatOps F]

/-- One trip of the loop yields the carried column plus the row sums of the chunk it loads. -/
theorem tripR_eq (𝒱 : Variants) (c : Dev nD) (bd : Option 𝒱.V) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole)
    (mv_v24 : Memref sig .tc .vmem S1024x4096 .f32) (hcanon_v24 : (arg2.slice (Rect.unit (s := S1x1024x4096) ![0, 0, 0] S1x1024x4096.size inb_S1x1024x4096_S1x1024x4096_0_0_0) (fun _ => rfl)).squeeze S1024x4096 squeezes_S1x1024x4096_S1024x4096 = mv_v24) (X_v24 : BufTy.Contents (Elt F) mv_v24.view.ty) (k : Fin k0_t1_loop.trips) (acc : FVec F S1024x1 .f32) :
    tripR_k0_t1 (F := F) 𝒱 c bd i arg2 harg2 arg3 harg3 arg4 harg4 arg5 harg5 mv_v24 hcanon_v24 X_v24 k acc
      = k0_pay2 acc (mv_v24.view.readAt (Elt F) (Rect.unit (s := S1024x4096) (k0_off1 k) S1024x512.size (k0_off1_inb k)).toLoadRect X_v24) := by
  unfold tripR_k0_t1 trip_k0_t1
  rfl

/-- The column the loop carries before trip n, from the zero start, on the weights' block x0. -/
def carried (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole) (x0 : Vec F S1x1024x4096 .f32) (n : ℕ) : FVec F S1024x1 .f32 :=
  st_k0_t1 (F := F) Variants.none c none i arg2 harg2 arg3 harg3 arg4 harg4 arg5 harg5 (rowsOf arg2) rfl (harg2.unread x0) (k0_pay1 (F := F)) n

/-- The loop makes eight trips. -/
theorem trips_eq : k0_t1_loop.trips = 8 := by decide

/-- The row-scale output is written by one whole-block store of the guarded inverse square root column. -/
theorem run0_fst (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole) (x0 : Vec F S1x1024x4096 .f32) (x1 : Vec F S1x1024x128 .f32) :
    (kernelRun0 (F := F) c i arg2 harg2 arg3 harg3 arg4 harg4 arg5 harg5 x0 x1).1
      = [⟨Rect.unit (s := S1x1024x1) ![0, 0, 0] S1x1024x1.size inb_S1x1024x1_S1x1024x1_0_0_0,
          k0_pay4 (carried (F := F) c i arg2 harg2 arg3 harg3 arg4 harg4 arg5 harg5 x0 k0_t1_loop.trips)⟩] := by
  unfold kernelRun0 carried
  rfl

/-- The scaled-features output is written by one whole-block store. -/
theorem run0_snd (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole) (x0 : Vec F S1x1024x4096 .f32) (x1 : Vec F S1x1024x128 .f32) :
    (kernelRun0 (F := F) c i arg2 harg2 arg3 harg3 arg4 harg4 arg5 harg5 x0 x1).2.1
      = [⟨Rect.unit (s := S1x1024x128) ![0, 0, 0] S1x1024x128.size inb_S1x1024x128_S1x1024x128_0_0_0,
          k0_pay5 (carried (F := F) c i arg2 harg2 arg3 harg3 arg4 harg4 arg5 harg5 x0 k0_t1_loop.trips)
            (arg3.view.readAt (Elt F) (Rect.unit (s := S1x1024x128) ![0, 0, 0] S1x1024x128.size inb_S1x1024x128_S1x1024x128_0_0_0).toLoadRect (harg3.unread x1))⟩] := by
  unfold kernelRun0 carried
  rfl

theorem zeros3 : (![0, 0, 0] : Fin 3 → ℕ) = fun _ => 0 :=
  funext fun a => by match a with | ⟨0, _⟩ => rfl | ⟨1, _⟩ => rfl | ⟨2, _⟩ => rfl

/-- What the body leaves in the row-scale buffer. -/
theorem out0_2_eq (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole) (x0 : Vec F S1x1024x4096 .f32) (x1 : Vec F S1x1024x128 .f32) :
    out0_2 (F := F) c i arg2 harg2 arg3 harg3 arg4 harg4 arg5 harg5 x0 x1 = k0_pay4 (carried (F := F) c i arg2 harg2 arg3 harg3 arg4 harg4 arg5 harg5 x0 k0_t1_loop.trips) := by
  unfold out0_2
  rw [View.read_writes_eq_canon _ _ _ (cover0_2 c i arg2 harg2 arg3 harg3 arg4 harg4 arg5 harg5 x0 x1), run0_fst]
  exact View.canon_unit_zero zeros3 _ _

/-- What the body leaves in the scaled-features buffer. -/
theorem out0_3_eq (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole) (x0 : Vec F S1x1024x4096 .f32) (x1 : Vec F S1x1024x128 .f32) :
    out0_3 (F := F) c i arg2 harg2 arg3 harg3 arg4 harg4 arg5 harg5 x0 x1 = k0_pay5 (carried (F := F) c i arg2 harg2 arg3 harg3 arg4 harg4 arg5 harg5 x0 k0_t1_loop.trips) x1 := by
  unfold out0_3
  rw [View.read_writes_eq_canon _ _ _ (cover0_3 c i arg2 harg2 arg3 harg3 arg4 harg4 arg5 harg5 x0 x1), run0_snd]
  refine (View.canon_unit_zero zeros3 _ _).trans ?_
  refine congrArg (k0_pay5 (carried (F := F) c i arg2 harg2 arg3 harg3 arg4 harg4 arg5 harg5 x0 k0_t1_loop.trips)) ?_
  rw [View.readAt_eq_ld, harg3.read_unread]
  exact View.ld_unit_zero zeros3 _ x1

theorem casts_rows : (Rect.unit (s := S1x1024x4096) ![0, 0, 0] S1x1024x4096.size inb_S1x1024x4096_S1x1024x4096_0_0_0).shape.ShapeCasts S1024x4096 := by decide

/-- The weights' buffer read through its matrix view is the block with its leading unit axis dropped. -/
theorem rowsOf_read (arg2 : Memref sig .tc .vmem S1x1024x4096 .f32) (harg2 : arg2.IsWhole) (x0 : Vec F S1x1024x4096 .f32) :
    (rowsOf arg2).view.read (Elt F) (harg2.unread x0) = shapeCast S1024x4096 x0 casts_rows := by
  refine (Memref.read_squeeze_slice (Val := Elt F) arg2 _ (fun _ => rfl) squeezes_S1x1024x4096_S1024x4096 casts_rows (harg2.unread x0)).trans ?_
  refine congrArg (fun X => shapeCast S1024x4096 X casts_rows) ?_
  rw [View.readAt_eq_ld, harg2.read_unread]
  exact View.ld_unit_zero zeros3 _ x0

/-- The chunk trip k loads, at row p and column j, is the block's entry at column 512·k + j of that row. -/
theorem chunk_apply (arg2 : Memref sig .tc .vmem S1x1024x4096 .f32) (harg2 : arg2.IsWhole) (x0 : Vec F S1x1024x4096 .f32)
    (k : Fin k0_t1_loop.trips) (p : Fin 1024) (j : Fin 512) (r : Fin 4096) (hr : r.val = 512 * k.val + j.val) :
    (rowsOf arg2).view.readAt (Elt F) (Rect.unit (s := S1024x4096) (k0_off1 k) S1024x512.size (k0_off1_inb k)).toLoadRect (harg2.unread x0) (ix2 p j)
      = x0 (ix3 (0 : Fin 1) p r) := by
  rw [View.readAt_apply, rowsOf_read]
  have h0 : k0_off1 k 0 = 0 := congrFun (k0_off1_eq k) 0
  have h1 : k0_off1 k 1 = 512 * k.val := congrFun (k0_off1_eq k) 1
  have hi : (Rect.unit (s := S1024x4096) (k0_off1 k) S1024x512.size (k0_off1_inb k)).toLoadRect.idx (ix2 p j) = ix2 p r :=
    funext fun a => Fin.ext (by
      match a with
      | ⟨0, _⟩ => show k0_off1 k 0 + 1 * p.val = p.val; rw [h0]; omega
      | ⟨1, _⟩ => show k0_off1 k 1 + 1 * j.val = r.val; rw [h1, hr]; omega)
  rw [hi]
  exact shapeCast_1ab_ab_apply x0 casts_rows p r

end Generic

section AtIdeal

theorem pos4096 : 0 < 4096 := by decide

/-- Before trip n the carried column holds, at row p, the sum of that row's first n chunks. -/
theorem carried_apply (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole) (x0 : Vec Ideal S1x1024x4096 .f32) (p : Fin 1024) :
    ∀ n : ℕ, n ≤ k0_t1_loop.trips →
      carried (F := Ideal) c i arg2 harg2 arg3 harg3 arg4 harg4 arg5 harg5 x0 n (ix2 p 0)
        = ∑ j ∈ Finset.range n, ∑ w : Fin 512, x0 (ix3 (0 : Fin 1) p (TileSum.posN (N := 4096) pos4096 j w))
  | 0, _ => by
    show k0_pay1 (F := Ideal) (ix2 p 0) = _
    rw [k0_pay1_apply, Finset.sum_range_zero]
  | n + 1, hn => by
    have hlt : n < k0_t1_loop.trips := hn
    have ih := carried_apply c i arg2 harg2 arg3 harg3 arg4 harg4 arg5 harg5 x0 p n (Nat.le_of_lt hlt)
    have hs : carried (F := Ideal) c i arg2 harg2 arg3 harg3 arg4 harg4 arg5 harg5 x0 (n + 1)
        = tripR_k0_t1 (F := Ideal) Variants.none c none i arg2 harg2 arg3 harg3 arg4 harg4 arg5 harg5 (rowsOf arg2) rfl (harg2.unread x0) ⟨n, hlt⟩
            (carried (F := Ideal) c i arg2 harg2 arg3 harg3 arg4 harg4 arg5 harg5 x0 n) :=
      st_k0_t1_succ (F := Ideal) Variants.none c none i arg2 harg2 arg3 harg3 arg4 harg4 arg5 harg5 (rowsOf arg2) rfl (harg2.unread x0) (k0_pay1 (F := Ideal)) ⟨n, hlt⟩
    refine (congrFun hs (ix2 p 0)).trans ?_
    refine (congrFun (tripR_eq (F := Ideal) Variants.none c none i arg2 harg2 arg3 harg3 arg4 harg4 arg5 harg5 (rowsOf arg2) rfl (harg2.unread x0) ⟨n, hlt⟩ _) (ix2 p 0)).trans ?_
    refine (k0_pay2_apply _ _ p).trans ?_
    rw [ih, Finset.sum_range_succ]
    refine congrArg (fun t => _ + t) (Finset.sum_congr rfl fun w _ => ?_)
    exact chunk_apply (F := Ideal) arg2 harg2 x0 ⟨n, hlt⟩ p w _
      (TileSum.posN_val (T := 8) (W := 512) (N := 4096) rfl pos4096 n (by rw [← trips_eq]; exact hlt) w)

/-- After the loop the carried column holds each row's whole sum. -/
theorem rowsum_eq (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole) (x0 : Vec Ideal S1x1024x4096 .f32) (p : Fin 1024) :
    carried (F := Ideal) c i arg2 harg2 arg3 harg3 arg4 harg4 arg5 harg5 x0 k0_t1_loop.trips (ix2 p 0) = ∑ m : Fin 4096, x0 (ix3 (0 : Fin 1) p m) := by
  rw [carried_apply c i arg2 harg2 arg3 harg3 arg4 harg4 arg5 harg5 x0 p k0_t1_loop.trips le_rfl, trips_eq]
  exact TileSum.sum_range_tiles (T := 8) (W := 512) (N := 4096) rfl pos4096 (fun m => x0 (ix3 (0 : Fin 1) p m))

/-- The row scale the body leaves: the guarded inverse square root of the row's sum of weights plus one. -/
theorem out0_2_apply (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole) (x0 : Vec Ideal S1x1024x4096 .f32) (x1 : Vec Ideal S1x1024x128 .f32) (p : Fin 1024) :
    out0_2 (F := Ideal) c i arg2 harg2 arg3 harg3 arg4 harg4 arg5 harg5 x0 x1 (ix3 0 p 0)
      = if 0 < (∑ m : Fin 4096, x0 (ix3 0 p m)) + 1 then Ideal.rsqrt ((∑ m : Fin 4096, x0 (ix3 0 p m)) + 1) else 0 := by
  rw [out0_2_eq, k0_pay4_apply, k0_pay3_apply, rowsum_eq]

/-- The scaled features the body leaves: each row of the features' block times the row's scale. -/
theorem out0_3_apply (c : Dev nD) (i : grid0.Coords) (arg2 : Memref sig .tc .vmem S1x1024x4096 .f32) (harg2 : arg2.IsWhole) (arg3 : Memref sig .tc .vmem S1x1024x128 .f32) (harg3 : arg3.IsWhole) (arg4 : Memref sig .tc .vmem S1x1024x1 .f32) (harg4 : arg4.IsWhole) (arg5 : Memref sig .tc .vmem S1x1024x128 .bf16) (harg5 : arg5.IsWhole) (x0 : Vec Ideal S1x1024x4096 .f32) (x1 : Vec Ideal S1x1024x128 .f32) (p : Fin 1024) (q : Fin 128) :
    out0_3 (F := Ideal) c i arg2 harg2 arg3 harg3 arg4 harg4 arg5 harg5 x0 x1 (ix3 0 p q)
      = (if 0 < (∑ m : Fin 4096, x0 (ix3 0 p m)) + 1 then Ideal.rsqrt ((∑ m : Fin 4096, x0 (ix3 0 p m)) + 1) else 0) * x1 (ix3 0 p q) := by
  rw [out0_3_eq, k0_pay5_apply, k0_pay3_apply, rowsum_eq]

end AtIdeal

end Cert.KernelIdeal.HandValue

end
-- ==== Proof.Spec.lean ====
/-
  The graph-convolution layer as one function of its four arrays, over the extended reals.

  For a batch g, a node n and an output feature o, with A the adjacency weights, X the node features,
  W the linear layer's weights (rows indexed by output feature) and b its bias:

    deg(g,n)   = (the sum over m of A(g,n,m)) + 1            -- the self loop adds one to every row sum
    dinv(g,n)  = 1/sqrt(deg(g,n)) where deg(g,n) > 0, else 0
    xs(g,m,k)  = dinv(g,m) * X(g,m,k)                         -- the features scaled by their own node
    hraw(g,n,k)= (the sum over m of A(g,n,m) * xs(g,m,k)) + xs(g,n,k)
    out(g,n,o) = (the sum over k of hraw(g,n,k) * W(o,k)) * dinv(g,n) + b(o)

  This is the arrangement in which the row scale dinv(g,n) is applied once, after both products.
-/
import Idealize.ShloMosaic.PureOps.Ideal
import Idealize.ShloMosaic.Lib.ValueIdx

noncomputable section

namespace Cert.Gcn

open Idealize.ShloMosaic Idealize.ShloMosaic.ValueIdx

abbrev SX : Shape := ⟨3, ![4, 4096, 128]⟩
abbrev SA : Shape := ⟨3, ![4, 4096, 4096]⟩
abbrev SW : Shape := ⟨2, ![128, 128]⟩
abbrev SB : Shape := ⟨1, ![128]⟩

variable (A : SA.Idx → EReal) (X : SX.Idx → EReal) (W : SW.Idx → EReal) (b : SB.Idx → EReal)

/-- A node's degree: its row of weights summed, plus one for the self loop. -/
def deg (g : Fin 4) (n : Fin 4096) : EReal := (∑ m : Fin 4096, A (ix3 g n m)) + 1

/-- The inverse square root of the degree where the degree is positive, zero elsewhere. -/
def dinv (g : Fin 4) (n : Fin 4096) : EReal := if 0 < deg A g n then Ideal.rsqrt (deg A g n) else 0

/-- A node's features scaled by the node's own inverse root degree. -/
def xs (g : Fin 4) (m : Fin 4096) (k : Fin 128) : EReal := dinv A g m * X (ix3 g m k)

/-- The scaled features propagated along the weights, the node's own added for the self loop. -/
def hraw (g : Fin 4) (n : Fin 4096) (k : Fin 128) : EReal :=
  (∑ m : Fin 4096, A (ix3 g n m) * xs A X g m k) + xs A X g n k

/-- The linear layer on the propagated features, the row's scale applied after it, and the bias. -/
def out (g : Fin 4) (n : Fin 4096) (o : Fin 128) : EReal :=
  (∑ k : Fin 128, hraw A X g n k * W (ix2 o k)) * dinv A g n + b (ix1 o)

/-- The layer's result as one array. -/
def G : SX.Idx → EReal := fun j => out A X W b (j 0) (j 1) (j 2)

theorem G_apply (g : Fin 4) (n : Fin 4096) (o : Fin 128) : G A X W b (ix3 g n o) = out A X W b g n o := rfl

end Cert.Gcn

end
-- ==== Proof.IdealArrays0.lean ====
/-
  The first kernel's two result arrays as functions of its argument arrays.

  The sixteen points of the first kernel's grid are the pairs (batch, row block): point t works on
  batch t / 4 and on the rows 1024 * (t % 4) ... 1024 * (t % 4) + 1023 of that batch. At a point the
  body reads the block of weights and the block of features for those rows and leaves the rows' inverse
  root degrees and the rows' features scaled by them; written back where the blocks lie, and the blocks
  covering the arrays, the array of row scales ends holding every node's inverse root degree and the
  array of scaled features every node's scaled features.
-/
import proofs.«100409_j75703093559638_2_alg».proof.Proof.IdealBody0
import proofs.«100409_j75703093559638_2_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ### The first kernel: index maps, blocks and the cover -/

/-- The index maps of the first kernel's four windows over its sixteen points: batch t / 4, row block t % 4, lane block 0. -/
theorem idx0 : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

theorem N0 : cfg0.N = 16 := Gen.N_0

/-- The batch a point of the first grid works on. -/
def g0 (t : Fin cfg0.N) : Fin 4 := ⟨t.val / 4, by have := t.isLt; have := N0; omega⟩
/-- The node a row of a point's block is. -/
def n0 (t : Fin cfg0.N) (p : Fin 1024) : Fin 4096 := ⟨t.val % 4 * 1024 + p.val, by have := p.isLt; omega⟩

/-- The weights' block at a point, read where its rectangle lies in the array. -/
theorem blk0_0_at (c : Dev nD) (t : Fin cfg0.N) (p : Fin 1024) (m : Fin 4096) :
    iblk0 V c 0 t (ix3 0 p m) = V c main_arg1 (ix3 (g0 t) (n0 t p) m) := by
  obtain ⟨e0, e1, e2, -⟩ := idx0 t
  show V c main_arg1 (((cfg0.win 0).blk t).view.emb (ix3 0 p m)) = V c main_arg1 (ix3 (g0 t) (n0 t p) m)
  refine congrArg (V c main_arg1) (funext fun a => Fin.ext ?_)
  match a with
  | ⟨0, _⟩ => show win0_0.index t (0 : Fin 3) * 1 + 1 * 0 = t.val / 4; omega
  | ⟨1, _⟩ => show win0_0.index t (1 : Fin 3) * 1024 + 1 * p.val = t.val % 4 * 1024 + p.val; omega
  | ⟨2, _⟩ => show win0_0.index t (2 : Fin 3) * 4096 + 1 * m.val = m.val; omega

/-- The features' block at a point, read where its rectangle lies in the array. -/
theorem blk0_1_at (c : Dev nD) (t : Fin cfg0.N) (p : Fin 1024) (q : Fin 128) :
    iblk0 V c 1 t (ix3 0 p q) = V c main_arg0 (ix3 (g0 t) (n0 t p) q) := by
  obtain ⟨-, -, -, e0, e1, e2, -⟩ := idx0 t
  show V c main_arg0 (((cfg0.win 1).blk t).view.emb (ix3 0 p q)) = V c main_arg0 (ix3 (g0 t) (n0 t p) q)
  refine congrArg (V c main_arg0) (funext fun a => Fin.ext ?_)
  match a with
  | ⟨0, _⟩ => show win0_1.index t (0 : Fin 3) * 1 + 1 * 0 = t.val / 4; omega
  | ⟨1, _⟩ => show win0_1.index t (1 : Fin 3) * 1024 + 1 * p.val = t.val % 4 * 1024 + p.val; omega
  | ⟨2, _⟩ => show win0_1.index t (2 : Fin 3) * 128 + 1 * q.val = q.val; omega

/-- Where an element of the row scales' block at a point sits in the array. -/
theorem emb0_2 (t : Fin cfg0.N) (p : Fin 1024) :
    ((cfg0.win 2).blk t).view.emb (ix3 0 p 0) = ix3 (g0 t) (n0 t p) 0 := by
  obtain ⟨-, -, -, -, -, -, e0, e1, e2, -⟩ := idx0 t
  refine funext fun a => Fin.ext ?_
  match a with
  | ⟨0, _⟩ => show win0_2.index t (0 : Fin 3) * 1 + 1 * 0 = t.val / 4; omega
  | ⟨1, _⟩ => show win0_2.index t (1 : Fin 3) * 1024 + 1 * p.val = t.val % 4 * 1024 + p.val; omega
  | ⟨2, _⟩ => show win0_2.index t (2 : Fin 3) * 1 + 1 * 0 = 0; omega

/-- Where an element of the scaled features' block at a point sits in the array. -/
theorem emb0_3 (t : Fin cfg0.N) (p : Fin 1024) (q : Fin 128) :
    ((cfg0.win 3).blk t).view.emb (ix3 0 p q) = ix3 (g0 t) (n0 t p) q := by
  obtain ⟨-, -, -, -, -, -, -, -, -, e0, e1, e2⟩ := idx0 t
  refine funext fun a => Fin.ext ?_
  match a with
  | ⟨0, _⟩ => show win0_3.index t (0 : Fin 3) * 1 + 1 * 0 = t.val / 4; omega
  | ⟨1, _⟩ => show win0_3.index t (1 : Fin 3) * 1024 + 1 * p.val = t.val % 4 * 1024 + p.val; omega
  | ⟨2, _⟩ => show win0_3.index t (2 : Fin 3) * 128 + 1 * q.val = q.val; omega

/-- The inverse root degree of a node from a block of weights that holds the node's row. -/
theorem dinv_of_row (A : Cert.Gcn.SA.Idx → EReal) (x0 : Vec Ideal S1x1024x4096 .f32) (g : Fin 4) (n : Fin 4096) (p : Fin 1024)
    (hx : ∀ m : Fin 4096, x0 (ix3 0 p m) = A (ix3 g n m)) :
    (if 0 < (∑ m : Fin 4096, x0 (ix3 0 p m)) + 1 then Ideal.rsqrt ((∑ m : Fin 4096, x0 (ix3 0 p m)) + 1) else 0)
      = Cert.Gcn.dinv A g n := by
  unfold Cert.Gcn.dinv Cert.Gcn.deg
  simp only [hx]

/-- What a point of the first kernel writes back into the row scales is its block of the inverse root degrees. -/
theorem flushed0_2_eq (c : Dev nD) (t : Fin cfg0.N) :
    (dat0 (F := Ideal) V c).flushed 2 t
      = ((cfg0.win 2).blk t).view.read (Elt Ideal) (fun j => Cert.Gcn.dinv (V c main_arg1) (j 0) (j 1)) := by
  show (cfg0.win 2).cut (grid0.coords t) ((dat0 V c).after 2 t) = _
  rw [after0_2]; unfold outsAt0_2
  funext y
  obtain ⟨a, p, b, rfl⟩ : ∃ (a : Fin 1) (p : Fin 1024) (b : Fin 1), y = ix3 a p b := ⟨y 0, y 1, y 2, eq_ix3 y⟩
  obtain rfl : a = 0 := Subsingleton.elim _ _
  obtain rfl : b = 0 := Subsingleton.elim _ _
  show out0_2 c (grid0.coords t) (ms0_0 t) (hs0_0 t) (ms0_1 t) (hs0_1 t) (ms0_2 t) (hs0_2 t) (ms0_3 t) (hs0_3 t) (iblk0 V c 0 t) (iblk0 V c 1 t) (ix3 0 p 0)
    = (fun j : S4x4096x1.Idx => Cert.Gcn.dinv (V c main_arg1) (j 0) (j 1)) (((cfg0.win 2).blk t).view.emb (ix3 0 p 0))
  rw [emb0_2]
  exact (out0_2_apply c (grid0.coords t) (ms0_0 t) (hs0_0 t) (ms0_1 t) (hs0_1 t) (ms0_2 t) (hs0_2 t) (ms0_3 t) (hs0_3 t) (iblk0 V c 0 t) (iblk0 V c 1 t) p).trans (dinv_of_row (V c main_arg1) (iblk0 V c 0 t) (g0 t) (n0 t p) p (fun m => blk0_0_at V c t p m))

/-- What a point of the first kernel writes back into the scaled features is its block of them. -/
theorem flushed0_3_eq (c : Dev nD) (t : Fin cfg0.N) :
    (dat0 (F := Ideal) V c).flushed 3 t
      = ((cfg0.win 3).blk t).view.read (Elt Ideal) (fun j => Cert.Gcn.xs (V c main_arg1) (V c main_arg0) (j 0) (j 1) (j 2)) := by
  show (cfg0.win 3).cut (grid0.coords t) ((dat0 V c).after 3 t) = _
  rw [after0_3]; unfold outsAt0_3
  funext y
  obtain ⟨a, p, q, rfl⟩ : ∃ (a : Fin 1) (p : Fin 1024) (q : Fin 128), y = ix3 a p q := ⟨y 0, y 1, y 2, eq_ix3 y⟩
  obtain rfl : a = 0 := Subsingleton.elim _ _
  show out0_3 c (grid0.coords t) (ms0_0 t) (hs0_0 t) (ms0_1 t) (hs0_1 t) (ms0_2 t) (hs0_2 t) (ms0_3 t) (hs0_3 t) (iblk0 V c 0 t) (iblk0 V c 1 t) (ix3 0 p q)
    = (fun j : S4x4096x128.Idx => Cert.Gcn.xs (V c main_arg1) (V c main_arg0) (j 0) (j 1) (j 2)) (((cfg0.win 3).blk t).view.emb (ix3 0 p q))
  rw [emb0_3]
  refine (out0_3_apply c (grid0.coords t) (ms0_0 t) (hs0_0 t) (ms0_1 t) (hs0_1 t) (ms0_2 t) (hs0_2 t) (ms0_3 t) (hs0_3 t) (iblk0 V c 0 t) (iblk0 V c 1 t) p q).trans ?_
  show _ = Cert.Gcn.dinv (V c main_arg1) (g0 t) (n0 t p) * V c main_arg0 (ix3 (g0 t) (n0 t p) q)
  rw [dinv_of_row (V c main_arg1) (iblk0 V c 0 t) (g0 t) (n0 t p) p (fun m => blk0_0_at V c t p m), blk0_1_at]

/-- An index of the row scales is in a point's block iff each coordinate is in the block's range on its axis. -/
theorem mem_blk0_2 (t : Fin cfg0.N) (i : S4x4096x1.Idx) :
    i ∈ ((cfg0.win 2).blk t).view.set ↔ ∀ a : Fin 3, win0_2.index t a * S1x1024x1.size a ≤ (i a).val ∧ (i a).val < win0_2.index t a * S1x1024x1.size a + S1x1024x1.size a := by
  show i ∈ ((View.whole main_v0_0).slice (win0_2.rect t)).set ↔ _
  rw [View.set_slice_whole, Rect.mem_set_unit]
  exact Iff.rfl

theorem mem_blk0_3 (t : Fin cfg0.N) (i : S4x4096x128.Idx) :
    i ∈ ((cfg0.win 3).blk t).view.set ↔ ∀ a : Fin 3, win0_3.index t a * S1x1024x128.size a ≤ (i a).val ∧ (i a).val < win0_3.index t a * S1x1024x128.size a + S1x1024x128.size a := by
  show i ∈ ((View.whole main_v0_1).slice (win0_3.rect t)).set ↔ _
  rw [View.set_slice_whole, Rect.mem_set_unit]
  exact Iff.rfl

/-- Every row scale is written by the point of its batch and row block. -/
theorem cover0_2_all (i : S4x4096x1.Idx) : ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 1 := (i 2).isLt
  have hN := N0
  obtain ⟨t, ht⟩ : ∃ t : Fin cfg0.N, t.val = 4 * (i 0).val + (i 1).val / 1024 := ⟨⟨4 * (i 0).val + (i 1).val / 1024, by omega⟩, rfl⟩
  refine ⟨t, flush0_2 t, ?_⟩
  rw [mem_blk0_2]
  obtain ⟨-, -, -, -, -, -, e0, e1, e2, -⟩ := idx0 t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1 ≤ (i 2).val ∧ (i 2).val < win0_2.index t (2 : Fin 3) * 1 + 1; omega

/-- Every scaled feature is written by the point of its batch and row block. -/
theorem cover0_3_all (i : S4x4096x128.Idx) : ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 128 := (i 2).isLt
  have hN := N0
  obtain ⟨t, ht⟩ : ∃ t : Fin cfg0.N, t.val = 4 * (i 0).val + (i 1).val / 1024 := ⟨⟨4 * (i 0).val + (i 1).val / 1024, by omega⟩, rfl⟩
  refine ⟨t, flush0_3 t, ?_⟩
  rw [mem_blk0_3]
  obtain ⟨-, -, -, -, -, -, -, -, -, e0, e1, e2⟩ := idx0 t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

/-- After the first kernel the array of row scales holds every node's inverse root degree. -/
theorem arr0_2 (c : Dev nD) :
    (dat0 (F := Ideal) V c).arrAt 2 cfg0.N = fun j => Cert.Gcn.dinv (V c main_arg1) (j 0) (j 1) :=
  (dat0 (F := Ideal) V c).arrAt_eq_of_cover 2 _ (fun t _ => flushed0_2_eq V c t) cover0_2_all

/-- After the first kernel the array of scaled features holds every node's features times its inverse root degree. -/
theorem arr0_3 (c : Dev nD) :
    (dat0 (F := Ideal) V c).arrAt 3 cfg0.N = fun j => Cert.Gcn.xs (V c main_arg1) (V c main_arg0) (j 0) (j 1) (j 2) :=
  (dat0 (F := Ideal) V c).arrAt_eq_of_cover 3 _ (fun t _ => flushed0_3_eq V c t) cover0_3_all

end Cert.KernelIdeal.HandValue

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.PayAt1.lean ====
/-
  The second kernel body's arithmetic read at an index, over the extended reals.

  The body multiplies a 512-row tile of the adjacency weights by the scaled features, adds the tile's own
  rows of scaled features (the self loop), multiplies the result by the transposed layer weights, scales
  each row by that row's inverse root degree and adds the bias row. Read at a row p and an output column q
  this is a sum over the 128 feature columns of (a sum over the 4096 nodes, plus the own row's entry) times
  the weight, then times the row's scale, plus the bias at q.
-/
import proofs.«100409_j75703093559638_2_alg».proof.Proof.Gen.KernelIdeal.Skeleton
import proofs.«100409_j75703093559638_2_alg».proof.Proof.LibRowOps
import proofs.«100409_j75703093559638_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

/-- The first product's dimension numbers are those of a plain 512×4096 by 4096×128 product. -/
theorem dotA_eq : dot_S512x4096_S4096x128_S512x128_1_0_0_1_n_n = DotDims.plain 512 4096 128 := rfl

/-- The second product's dimension numbers are those of a plain 512×128 by 128×128 product. -/
theorem dotB_eq : dot_S512x128_S128x128_S512x128_1_0_0_1_n_n = DotDims.plain 512 128 128 := rfl

/-- The first product into a zero accumulator, at (p, k): the sum over the 4096 contracted positions. -/
theorem dotA_apply (lhs : FVec Ideal S512x4096 .bf16) (rhs : FVec Ideal S4096x128 .bf16) (p : Fin 512) (k : Fin 128) :
    matmul dot_S512x4096_S4096x128_S512x128_1_0_0_1_n_n none lhs rhs (constant (F := Ideal) S512x128 .f32 0x00000000#32) (ix2 p k)
      = ∑ m : Fin 4096, lhs (ix2 p m) * rhs (ix2 m k) := by
  rw [dotA_eq]
  exact PlainDot.matmul_zero_apply (M := 512) (K := 4096) (N := 128) none lhs rhs p k

/-- The second product into a zero accumulator, at (p, q): the sum over the 128 contracted positions. -/
theorem dotB_apply (lhs : FVec Ideal S512x128 .bf16) (rhs : FVec Ideal S128x128 .bf16) (p : Fin 512) (q : Fin 128) :
    matmul dot_S512x128_S128x128_S512x128_1_0_0_1_n_n none lhs rhs (constant (F := Ideal) S512x128 .f32 0x00000000#32) (ix2 p q)
      = ∑ k : Fin 128, lhs (ix2 p k) * rhs (ix2 k q) := by
  rw [dotB_eq]
  exact PlainDot.matmul_zero_apply (M := 512) (K := 128) (N := 128) none lhs rhs p q

/-- The second body's stored value at row p and column q. -/
theorem k1_pay1_apply (v2 : Vec Ideal S1x512x4096 .f32) (v5 : Vec Ideal S1x4096x128 .bf16) (v11 : Vec Ideal S512x128 .bf16)
    (v15 : Vec Ideal S128x128 .f32) (v20 : Vec Ideal S1x512x1 .f32) (v22 : Vec Ideal S1x128 .f32) (p : Fin 512) (q : Fin 128) :
    k1_pay1 (F := Ideal) v2 v5 v11 v15 v20 v22 (ix3 0 p q)
      = (∑ k : Fin 128, ((∑ m : Fin 4096, v2 (ix3 0 p m) * v5 (ix3 0 m k)) + v11 (ix2 p k)) * v15 (ix2 k q)) * v20 (ix3 0 p 0)
        + v22 (ix2 0 q) := by
  unfold k1_pay1
  refine (shapeCast_ab_1ab_apply _ _ 0 p q).trans ?_
  refine (addf_apply _ _ _).trans ?_
  refine congrArg₂ (fun s t : EReal => s + t) ?_ ?_
  · refine (mulf_apply _ _ _).trans ?_
    refine congrArg₂ (fun s t : EReal => s * t) ?_ ?_
    · refine (dotB_apply _ _ p q).trans ?_
      refine Finset.sum_congr rfl fun k _ => ?_
      refine congrArg₂ (fun s t : EReal => s * t) ?_ ?_
      · refine (truncf_apply (φ := .f32) (ψ := .bf16) _ _ _).trans ?_
        refine (addf_apply _ _ _).trans ?_
        refine congrArg₂ (fun s t : EReal => s + t) ?_ ?_
        · refine (dotA_apply _ _ p k).trans ?_
          refine Finset.sum_congr rfl fun m _ => ?_
          refine congrArg₂ (fun s t : EReal => s * t) ?_ ?_
          · refine (truncf_apply (φ := .f32) (ψ := .bf16) _ _ _).trans ?_
            exact shapeCast_1ab_ab_apply v2 _ p m
          · exact shapeCast_1ab_ab_apply v5 _ m k
        · refine (extf_apply (φ := .bf16) (ψ := .f32) _ _ _).trans ?_
          exact congrFun (shapeCast_self v11 _) (ix2 p k)
      · refine (truncf_apply (φ := .f32) (ψ := .bf16) _ _ _).trans ?_
        exact congrFun (shapeCast_self v15 _) (ix2 k q)
    · refine (RowOps.colBcast_apply _ _ p q).trans ?_
      exact shapeCast_1ab_ab_apply v20 _ p 0
  · refine (broadcastTo_1b_ab_apply _ _ p q).trans ?_
    exact congrFun (shapeCast_self v22 _) (ix2 0 q)

end Cert.KernelIdeal.PayAt

end
-- ==== Proof.IdealBody1.lean ====
/-
  The second kernel body's result as a function of its five input blocks, over the extended reals.

  The body loads a strip of 512 rows of the weights, the batch's scaled features, the strip's own 512 rows of
  the scaled features (the rows at 512 times the strip's number onward), the transposed layer weights, the
  strip's row scales and the bias row, and stores one whole block: at row p and output column q, the sum over
  the feature columns of (the weights' row times the scaled features' column, plus the own row's entry) times
  the layer weight, then times the row's scale, plus the bias.
-/
import proofs.«100409_j75703093559638_2_alg».proof.Proof.IdealReg1
import proofs.«100409_j75703093559638_2_alg».proof.Proof.PayAt1

set_option maxRecDepth 65536

noncomputable section

open scoped BigOperators

namespace Cert.KernelIdeal.HandValue

open Cert.KernelIdeal Cert.KernelIdeal.Gen Cert.KernelIdeal.Hand Cert.KernelIdeal.PayAt
open Idealize.ShloMosaic Idealize.ShloMosaic.ValueIdx

section Generic

variable {F : FTy → Type} [FloatOps F]

/-- The scaled features' buffer seen as a matrix of 4096 rows: the view the own rows are loaded through. -/
abbrev featRows (arg3 : Memref sig .tc .vmem S1x4096x128 .bf16) : Memref sig .tc .vmem S4096x128 .bf16 :=
  (arg3.slice (Rect.unit (s := S1x4096x128) ![0, 0, 0] S1x4096x128.size inb_S1x4096x128_S1x4096x128_0_0_0) (fun _ => rfl)).squeeze S4096x128 squeezes_S1x4096x128_S4096x128

/-- The strip's own rows of the scaled features, as the body loads them. -/
def ownRows (i : grid1.Coords) (arg3 : Memref sig .tc .vmem S1x4096x128 .bf16) (harg3 : arg3.IsWhole) (x1 : Vec F S1x4096x128 .bf16) : Vec F S512x128 .bf16 :=
  (featRows arg3).view.readAt (Elt F) (Rect.unit (s := S4096x128) (k1_off1 i) S512x128.size (k1_off1_inb i)).toLoadRect (harg3.unread x1)

theorem zeros3' : (![0, 0, 0] : Fin 3 → ℕ) = fun _ => 0 :=
  funext fun a => by match a with | ⟨0, _⟩ => rfl | ⟨1, _⟩ => rfl | ⟨2, _⟩ => rfl

theorem zeros2' : (![0, 0] : Fin 2 → ℕ) = fun _ => 0 :=
  funext fun a => by match a with | ⟨0, _⟩ => rfl | ⟨1, _⟩ => rfl

/-- A whole buffer holding a block, loaded through the whole rectangle, reads the block. -/
theorem whole_read {s : Shape} {e : EltTy} (m : Memref sig .tc .vmem s e) (h : m.IsWhole) {off : Fin s.rank → ℕ} (hoff : off = fun _ => 0)
    (inb : ∀ a, off a + s.size a ≤ s.size a) (x : s.Idx → Elt F e) :
    m.view.readAt (Elt F) (Rect.unit (s := s) off s.size inb).toLoadRect (h.unread x) = x := by
  rw [View.readAt_eq_ld, h.read_unread]
  exact View.ld_unit_zero hoff inb x

/-- The output is written by one whole-block store of the payload of the six loads. -/
theorem run1_fst (c : Dev nD) (i : grid1.Coords) (arg2 : Memref sig .tc .vmem S1x512x4096 .f32) (harg2 : arg2.IsWhole) (arg3 : Memref sig .tc .vmem S1x4096x128 .bf16) (harg3 : arg3.IsWhole) (arg4 : Memref sig .tc .vmem S1x512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x512x128 .f32) (harg7 : arg7.IsWhole) (x0 : Vec F S1x512x4096 .f32) (x1 : Vec F S1x4096x128 .bf16) (x2 : Vec F S1x512x1 .f32) (x3 : Vec F S128x128 .f32) (x4 : Vec F S1x128 .f32) :
    (kernelRun1 (F := F) c i arg2 harg2 arg3 harg3 arg4 harg4 arg5 harg5 arg6 harg6 arg7 harg7 x0 x1 x2 x3 x4).1
      = [⟨Rect.unit (s := S1x512x128) ![0, 0, 0] S1x512x128.size inb_S1x512x128_S1x512x128_0_0_0,
          k1_pay1
            (arg2.view.readAt (Elt F) (Rect.unit (s := S1x512x4096) ![0, 0, 0] S1x512x4096.size inb_S1x512x4096_S1x512x4096_0_0_0).toLoadRect (harg2.unread x0))
            (arg3.view.readAt (Elt F) (Rect.unit (s := S1x4096x128) ![0, 0, 0] S1x4096x128.size inb_S1x4096x128_S1x4096x128_0_0_0).toLoadRect (harg3.unread x1))
            (ownRows (F := F) i arg3 harg3 x1)
            (arg5.view.readAt (Elt F) (Rect.unit (s := S128x128) ![0, 0] S128x128.size inb_S128x128_S128x128_0_0).toLoadRect (harg5.unread x3))
            (arg4.view.readAt (Elt F) (Rect.unit (s := S1x512x1) ![0, 0, 0] S1x512x1.size inb_S1x512x1_S1x512x1_0_0_0).toLoadRect (harg4.unread x2))
            (arg6.view.readAt (Elt F) (Rect.unit (s := S1x128) ![0, 0] S1x128.size inb_S1x128_S1x128_0_0).toLoadRect (harg6.unread x4))⟩] := by
  unfold kernelRun1 ownRows
  rfl

/-- What the body leaves in the output buffer: the payload of the blocks and the strip's own rows. -/
theorem out1_5_eq (c : Dev nD) (i : grid1.Coords) (arg2 : Memref sig .tc .vmem S1x512x4096 .f32) (harg2 : arg2.IsWhole) (arg3 : Memref sig .tc .vmem S1x4096x128 .bf16) (harg3 : arg3.IsWhole) (arg4 : Memref sig .tc .vmem S1x512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x512x128 .f32) (harg7 : arg7.IsWhole) (x0 : Vec F S1x512x4096 .f32) (x1 : Vec F S1x4096x128 .bf16) (x2 : Vec F S1x512x1 .f32) (x3 : Vec F S128x128 .f32) (x4 : Vec F S1x128 .f32) :
    out1_5 (F := F) c i arg2 harg2 arg3 harg3 arg4 harg4 arg5 harg5 arg6 harg6 arg7 harg7 x0 x1 x2 x3 x4 = k1_pay1 x0 x1 (ownRows (F := F) i arg3 harg3 x1) x3 x2 x4 := by
  unfold out1_5
  rw [View.read_writes_eq_canon _ _ _ (cover1_5 c i arg2 harg2 arg3 harg3 arg4 harg4 arg5 harg5 arg6 harg6 arg7 harg7 x0 x1 x2 x3 x4), run1_fst]
  refine (View.canon_unit_zero zeros3' _ _).trans ?_
  rw [whole_read arg2 harg2 zeros3' _ x0, whole_read arg3 harg3 zeros3' _ x1, whole_read arg5 harg5 zeros2' _ x3,
    whole_read arg4 harg4 zeros3' _ x2, whole_read arg6 harg6 zeros2' _ x4]

theorem casts_feat : (Rect.unit (s := S1x4096x128) ![0, 0, 0] S1x4096x128.size inb_S1x4096x128_S1x4096x128_0_0_0).shape.ShapeCasts S4096x128 := by decide

/-- The scaled features' buffer read through its matrix view is the block with its leading unit axis dropped. -/
theorem featRows_read (arg3 : Memref sig .tc .vmem S1x4096x128 .bf16) (harg3 : arg3.IsWhole) (x1 : Vec F S1x4096x128 .bf16) :
    (featRows arg3).view.read (Elt F) (harg3.unread x1) = shapeCast S4096x128 x1 casts_feat := by
  refine (Memref.read_squeeze_slice (Val := Elt F) arg3 _ (fun _ => rfl) squeezes_S1x4096x128_S4096x128 casts_feat (harg3.unread x1)).trans ?_
  refine congrArg (fun X => shapeCast S4096x128 X casts_feat) ?_
  exact whole_read arg3 harg3 zeros3' _ x1

/-- The strip's own rows at row p and column k: the scaled features' row 512 times the strip's number plus p. -/
theorem ownRows_apply (i : grid1.Coords) (arg3 : Memref sig .tc .vmem S1x4096x128 .bf16) (harg3 : arg3.IsWhole) (x1 : Vec F S1x4096x128 .bf16)
    (p : Fin 512) (k : Fin 128) (r : Fin 4096) (hr : r.val = 512 * (i 1).val + p.val) :
    ownRows (F := F) i arg3 harg3 x1 (ix2 p k) = x1 (ix3 (0 : Fin 1) r k) := by
  unfold ownRows
  rw [View.readAt_apply, featRows_read]
  have h0 : k1_off1 i 0 = 512 * (i 1).val := congrFun (k1_off1_eq i) 0
  have h1 : k1_off1 i 1 = 0 := congrFun (k1_off1_eq i) 1
  have hi : (Rect.unit (s := S4096x128) (k1_off1 i) S512x128.size (k1_off1_inb i)).toLoadRect.idx (ix2 p k) = ix2 r k :=
    funext fun a => Fin.ext (by
      match a with
      | ⟨0, _⟩ => show k1_off1 i 0 + 1 * p.val = r.val; rw [h0, hr]; omega
      | ⟨1, _⟩ => show k1_off1 i 1 + 1 * k.val = k.val; rw [h1]; omega)
  rw [hi]
  exact shapeCast_1ab_ab_apply x1 casts_feat r k

end Generic

section AtIdeal

/-- The block the body leaves, at row p and output column q. -/
theorem out1_5_apply (c : Dev nD) (i : grid1.Coords) (arg2 : Memref sig .tc .vmem S1x512x4096 .f32) (harg2 : arg2.IsWhole) (arg3 : Memref sig .tc .vmem S1x4096x128 .bf16) (harg3 : arg3.IsWhole) (arg4 : Memref sig .tc .vmem S1x512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x512x128 .f32) (harg7 : arg7.IsWhole) (x0 : Vec Ideal S1x512x4096 .f32) (x1 : Vec Ideal S1x4096x128 .bf16) (x2 : Vec Ideal S1x512x1 .f32) (x3 : Vec Ideal S128x128 .f32) (x4 : Vec Ideal S1x128 .f32) (p : Fin 512) (q : Fin 128) :
    out1_5 (F := Ideal) c i arg2 harg2 arg3 harg3 arg4 harg4 arg5 harg5 arg6 harg6 arg7 harg7 x0 x1 x2 x3 x4 (ix3 0 p q)
      = (∑ k : Fin 128, ((∑ m : Fin 4096, x0 (ix3 0 p m) * x1 (ix3 0 m k))
            + x1 (ix3 0 ⟨512 * (i 1).val + p.val, by have h : (i 1).val < 8 := (i 1).isLt; have := p.isLt; omega⟩ k)) * x3 (ix2 k q)) * x2 (ix3 0 p 0)
        + x4 (ix2 0 q) := by
  rw [out1_5_eq]
  refine (k1_pay1_apply x0 x1 _ x3 x2 x4 p q).trans ?_
  refine congrArg (fun t : EReal => t * x2 (ix3 0 p 0) + x4 (ix2 0 q)) ?_
  refine Finset.sum_congr rfl fun k _ => ?_
  refine congrArg (fun t : EReal => ((∑ m : Fin 4096, x0 (ix3 0 p m) * x1 (ix3 0 m k)) + t) * x3 (ix2 k q)) ?_
  exact ownRows_apply (F := Ideal) i arg3 harg3 x1 p k _ rfl

end AtIdeal

end Cert.KernelIdeal.HandValue

end
-- ==== Proof.IdealArrays1.lean ====
/-
  The second kernel's result array as a function of the arrays it finds.

  The thirty-two points of the second kernel's grid are the pairs (batch, row block): point t works on
  batch t / 8 and on the rows 512 * (t % 8) ... 512 * (t % 8) + 511 of that batch. At a point the body
  reads those rows of the weights, the whole batch of scaled features, those rows' scales, the whole
  transposed layer weights and the bias row, and leaves the rows' results; written back where the blocks
  lie, and the blocks covering the array, the result array holds at every (batch, node, output feature)

    (the sum over k of ((the sum over m of A(g,n,m) * S(g,m,k)) + S(g,n,k)) * WT(k,o)) * d(g,n,0) + bias(0,o)

  of the weights A, the scaled features S, the row scales d, the transposed layer weights WT and the bias row.
-/
import proofs.«100409_j75703093559638_2_alg».proof.Proof.IdealBody1
import proofs.«100409_j75703093559638_2_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ### The second kernel: index maps, blocks and the cover -/

/-- The index maps of the second kernel's six windows over its thirty-two points, and the point's row block. -/
theorem idx1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = t.val % 8 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 8 ∧ win1_5.index t (1 : Fin 3) = t.val % 8 ∧ win1_5.index t (2 : Fin 3) = 0
    ∧ (grid1.coords t (1 : Fin 2)).val = t.val % 8 :=
  (by decide +kernel : ∀ t : Fin grid1.N, _)

theorem N1 : cfg1.N = 32 := Gen.N_1

/-- The batch a point of the second grid works on. -/
def g1 (t : Fin cfg1.N) : Fin 4 := ⟨t.val / 8, by have := t.isLt; have := N1; omega⟩
/-- The node a row of a point's block is. -/
def n1 (t : Fin cfg1.N) (p : Fin 512) : Fin 4096 := ⟨t.val % 8 * 512 + p.val, by have := p.isLt; omega⟩

/-- The weights' block at a point, read where its rectangle lies in the array. -/
theorem blk1_0_at (c : Dev nD) (t : Fin cfg1.N) (p : Fin 512) (m : Fin 4096) :
    iblk1 V c 0 t (ix3 0 p m) = V c main_arg1 (ix3 (g1 t) (n1 t p) m) := by
  obtain ⟨e0, e1, e2, -⟩ := idx1 t
  show V c main_arg1 (((cfg1.win 0).blk t).view.emb (ix3 0 p m)) = V c main_arg1 (ix3 (g1 t) (n1 t p) m)
  refine congrArg (V c main_arg1) (funext fun a => Fin.ext ?_)
  match a with
  | ⟨0, _⟩ => show win1_0.index t (0 : Fin 3) * 1 + 1 * 0 = t.val / 8; omega
  | ⟨1, _⟩ => show win1_0.index t (1 : Fin 3) * 512 + 1 * p.val = t.val % 8 * 512 + p.val; omega
  | ⟨2, _⟩ => show win1_0.index t (2 : Fin 3) * 4096 + 1 * m.val = m.val; omega

/-- The scaled features' block at a point is the point's whole batch. -/
theorem blk1_1_at (c : Dev nD) (t : Fin cfg1.N) (m : Fin 4096) (k : Fin 128) :
    iblk1 V c 1 t (ix3 0 m k) = V c main_v0_1 (ix3 (g1 t) m k) := by
  obtain ⟨-, -, -, e0, e1, e2, -⟩ := idx1 t
  show V c main_v0_1 (((cfg1.win 1).blk t).view.emb (ix3 0 m k)) = V c main_v0_1 (ix3 (g1 t) m k)
  refine congrArg (V c main_v0_1) (funext fun a => Fin.ext ?_)
  match a with
  | ⟨0, _⟩ => show win1_1.index t (0 : Fin 3) * 1 + 1 * 0 = t.val / 8; omega
  | ⟨1, _⟩ => show win1_1.index t (1 : Fin 3) * 4096 + 1 * m.val = m.val; omega
  | ⟨2, _⟩ => show win1_1.index t (2 : Fin 3) * 128 + 1 * k.val = k.val; omega

/-- The row scales' block at a point, read where its rectangle lies in the array. -/
theorem blk1_2_at (c : Dev nD) (t : Fin cfg1.N) (p : Fin 512) :
    iblk1 V c 2 t (ix3 0 p 0) = V c main_v0_0 (ix3 (g1 t) (n1 t p) 0) := by
  obtain ⟨-, -, -, -, -, -, e0, e1, e2, -⟩ := idx1 t
  show V c main_v0_0 (((cfg1.win 2).blk t).view.emb (ix3 0 p 0)) = V c main_v0_0 (ix3 (g1 t) (n1 t p) 0)
  refine congrArg (V c main_v0_0) (funext fun a => Fin.ext ?_)
  match a with
  | ⟨0, _⟩ => show win1_2.index t (0 : Fin 3) * 1 + 1 * 0 = t.val / 8; omega
  | ⟨1, _⟩ => show win1_2.index t (1 : Fin 3) * 512 + 1 * p.val = t.val % 8 * 512 + p.val; omega
  | ⟨2, _⟩ => show win1_2.index t (2 : Fin 3) * 1 + 1 * 0 = 0; omega

/-- The transposed layer weights' block at a point is the whole array. -/
theorem blk1_3_at (c : Dev nD) (t : Fin cfg1.N) (k q : Fin 128) :
    iblk1 V c 3 t (ix2 k q) = V c main_v1 (ix2 k q) := by
  obtain ⟨-, -, -, -, -, -, -, -, -, e0, e1, -⟩ := idx1 t
  show V c main_v1 (((cfg1.win 3).blk t).view.emb (ix2 k q)) = V c main_v1 (ix2 k q)
  refine congrArg (V c main_v1) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias row's block at a point is the whole row. -/
theorem blk1_4_at (c : Dev nD) (t : Fin cfg1.N) (q : Fin 128) :
    iblk1 V c 4 t (ix2 0 q) = V c main_v2 (ix2 0 q) := by
  obtain ⟨-, -, -, -, -, -, -, -, -, -, -, e0, e1, -⟩ := idx1 t
  show V c main_v2 (((cfg1.win 4).blk t).view.emb (ix2 0 q)) = V c main_v2 (ix2 0 q)
  refine congrArg (V c main_v2) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- Where an element of the result's block at a point sits in the array. -/
theorem emb1_5 (t : Fin cfg1.N) (p : Fin 512) (q : Fin 128) :
    ((cfg1.win 5).blk t).view.emb (ix3 0 p q) = ix3 (g1 t) (n1 t p) q := by
  obtain ⟨-, -, -, -, -, -, -, -, -, -, -, -, -, e0, e1, e2, -⟩ := idx1 t
  refine funext fun a => Fin.ext ?_
  match a with
  | ⟨0, _⟩ => show win1_5.index t (0 : Fin 3) * 1 + 1 * 0 = t.val / 8; omega
  | ⟨1, _⟩ => show win1_5.index t (1 : Fin 3) * 512 + 1 * p.val = t.val % 8 * 512 + p.val; omega
  | ⟨2, _⟩ => show win1_5.index t (2 : Fin 3) * 128 + 1 * q.val = q.val; omega

/-- The second kernel's arithmetic on five arrays: the weights A, the scaled features S, the row scales d, the
    transposed layer weights WT and the bias row. -/
def res1F (A : S4x4096x4096.Idx → EReal) (S : S4x4096x128.Idx → EReal) (d : S4x4096x1.Idx → EReal)
    (WT : S128x128.Idx → EReal) (bias : S1x128.Idx → EReal) : S4x4096x128.Idx → EReal := fun j =>
  (∑ k : Fin 128, ((∑ mm : Fin 4096, A (ix3 (j 0) (j 1) mm) * S (ix3 (j 0) mm k)) + S (ix3 (j 0) (j 1) k)) * WT (ix2 k (j 2)))
      * d (ix3 (j 0) (j 1) 0)
    + bias (ix2 0 (j 2))

/-- The result array's contents, as one function of the five arrays the second kernel reads. -/
def res1 (c : Dev nD) : S4x4096x128.Idx → EReal :=
  res1F (V c main_arg1) (V c main_v0_1) (V c main_v0_0) (V c main_v1) (V c main_v2)

/-- What a point of the second kernel writes back is its block of the result. -/
theorem flushed1_5_eq (c : Dev nD) (t : Fin cfg1.N) :
    (dat1 (F := Ideal) V c).flushed 5 t = ((cfg1.win 5).blk t).view.read (Elt Ideal) (res1 V c) := by
  show (cfg1.win 5).cut (grid1.coords t) ((dat1 V c).after 5 t) = _
  rw [after1_5]; unfold outsAt1_5
  funext y
  obtain ⟨a, p, q, rfl⟩ : ∃ (a : Fin 1) (p : Fin 512) (q : Fin 128), y = ix3 a p q := ⟨y 0, y 1, y 2, eq_ix3 y⟩
  obtain rfl : a = 0 := Subsingleton.elim _ _
  show out1_5 c (grid1.coords t) (ms1_0 t) (hs1_0 t) (ms1_1 t) (hs1_1 t) (ms1_2 t) (hs1_2 t) (ms1_3 t) (hs1_3 t) (ms1_4 t) (hs1_4 t) (ms1_5 t) (hs1_5 t)
      (iblk1 V c 0 t) (iblk1 V c 1 t) (iblk1 V c 2 t) (iblk1 V c 3 t) (iblk1 V c 4 t) (ix3 0 p q)
    = res1 V c (((cfg1.win 5).blk t).view.emb (ix3 0 p q))
  rw [emb1_5]
  refine (out1_5_apply c (grid1.coords t) (ms1_0 t) (hs1_0 t) (ms1_1 t) (hs1_1 t) (ms1_2 t) (hs1_2 t) (ms1_3 t) (hs1_3 t) (ms1_4 t) (hs1_4 t) (ms1_5 t) (hs1_5 t)
      (iblk1 V c 0 t) (iblk1 V c 1 t) (iblk1 V c 2 t) (iblk1 V c 3 t) (iblk1 V c 4 t) p q).trans ?_
  have hrow : ∀ h, (⟨512 * (grid1.coords t (1 : Fin 2)).val + p.val, h⟩ : Fin 4096) = n1 t p := fun h => by
    obtain ⟨-, -, -, -, -, -, -, -, -, -, -, -, -, -, -, -, e⟩ := idx1 t
    apply Fin.ext; show 512 * (grid1.coords t (1 : Fin 2)).val + p.val = t.val % 8 * 512 + p.val; omega
  unfold res1 res1F
  simp only [blk1_0_at, blk1_1_at, blk1_2_at, blk1_3_at, blk1_4_at, hrow]

/-- An index of the result is in a point's block iff each coordinate is in the block's range on its axis. -/
theorem mem_blk1_5 (t : Fin cfg1.N) (i : S4x4096x128.Idx) :
    i ∈ ((cfg1.win 5).blk t).view.set ↔ ∀ a : Fin 3, win1_5.index t a * S1x512x128.size a ≤ (i a).val ∧ (i a).val < win1_5.index t a * S1x512x128.size a + S1x512x128.size a := by
  show i ∈ ((View.whole main_v3).slice (win1_5.rect t)).set ↔ _
  rw [View.set_slice_whole, Rect.mem_set_unit]
  exact Iff.rfl

/-- Every entry of the result is written by the point of its batch and row block. -/
theorem cover1_5_all (i : S4x4096x128.Idx) : ∃ t : Fin cfg1.N, (cfg1.win 5).flush t = true ∧ i ∈ ((cfg1.win 5).blk t).view.set := by
  have h0 : (i 0).val < 4 := (i 0).isLt
  have h1 : (i 1).val < 4096 := (i 1).isLt
  have h2 : (i 2).val < 128 := (i 2).isLt
  have hN := N1
  obtain ⟨t, ht⟩ : ∃ t : Fin cfg1.N, t.val = 8 * (i 0).val + (i 1).val / 512 := ⟨⟨8 * (i 0).val + (i 1).val / 512, by omega⟩, rfl⟩
  refine ⟨t, flush1_5 t, ?_⟩
  rw [mem_blk1_5]
  obtain ⟨-, -, -, -, -, -, -, -, -, -, -, -, -, e0, e1, e2, -⟩ := idx1 t
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 128 ≤ (i 2).val ∧ (i 2).val < win1_5.index t (2 : Fin 3) * 128 + 128; omega

/-- After the second kernel the result array holds that function of the arrays the kernel found. -/
theorem res1_apply (c : Dev nD) (g : Fin 4) (n : Fin 4096) (o : Fin 128) :
    res1 V c (ix3 g n o) = res1F (V c main_arg1) (V c main_v0_1) (V c main_v0_0) (V c main_v1) (V c main_v2) (ix3 g n o) := rfl

theorem res1F_apply (A : S4x4096x4096.Idx → EReal) (S : S4x4096x128.Idx → EReal) (d : S4x4096x1.Idx → EReal)
    (WT : S128x128.Idx → EReal) (bias : S1x128.Idx → EReal) (g : Fin 4) (n : Fin 4096) (o : Fin 128) :
    res1F A S d WT bias (ix3 g n o)
      = (∑ k : Fin 128, ((∑ mm : Fin 4096, A (ix3 g n mm) * S (ix3 g mm k)) + S (ix3 g n k)) * WT (ix2 k o)) * d (ix3 g n 0)
        + bias (ix2 0 o) := rfl

theorem arr1_5 (c : Dev nD) : (dat1 (F := Ideal) V c).arrAt 5 cfg1.N = res1 V c :=
  (dat1 (F := Ideal) V c).arrAt_eq_of_cover 5 (res1 V c) (fun t _ => flushed1_5_eq V c t) cover1_5_all

end Cert.KernelIdeal.HandValue

end
-- ==== Proof.IdealBoundary.lean ====
/- What the second kernel finds in the five arrays it reads: the weights as launched, the first kernel's two results,
   the layer's weights transposed and the bias as one row. -/
import proofs.«100409_j75703093559638_2_alg».proof.Proof.Gen.KernelIdeal.Launch
import proofs.«100409_j75703093559638_2_alg».proof.Proof.Gen.KernelIdeal.Skeleton
import proofs.«100409_j75703093559638_2_alg».proof.Proof.Gen.KernelIdeal.Points
import proofs.«100409_j75703093559638_2_alg».proof.Proof.Gen.KernelIdeal.Loops
import proofs.«100409_j75703093559638_2_alg».proof.Proof.IdealFrame
import Idealize.ShloMosaic.Lib.ValueIdx
import Idealize.ShloMosaic.Lib.ValueLayout
import Idealize.ShloMosaic.Lib.StableHlo.Run
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.StableHlo

variable (m : (ℓ : Loc nD τ sig) → Buf (Elt F) ℓ)

/-- The adjacency weights reach the second kernel as launched. -/
theorem V2_main_arg1 (c : Dev nD) : V2 m c main_arg1 = m ((c : Thread nD τ).loc main_arg1) :=
  calc W2 m c (Proc.devRef .tc main_arg1)
    _ = W1 m c (Proc.devRef .tc main_arg1) := W2_of_not_written m c main_arg1 (by decide) (by decide)
    _ = W0 m c (Proc.devRef .tc main_arg1) := (W1_arr m c 0).trans (((dat0 (V0 m) c).arrAt_in 0 rfl _).trans (A_eq0 (V0 m) c 0))
    _ = m ((c : Thread nD τ).loc main_arg1) := rfl

/-- The row scales and the scaled features reach it as the first kernel's write-backs left them. -/
theorem V2_main_v0_0 (c : Dev nD) : V2 m c main_v0_0 = (dat0 (V0 m) c).arrAt 2 cfg0.N :=
  (W2_of_not_written m c main_v0_0 (by decide) (by decide)).trans (W1_arr m c 2)
theorem V2_main_v0_1 (c : Dev nD) : V2 m c main_v0_1 = (dat0 (V0 m) c).arrAt 3 cfg0.N :=
  (W2_of_not_written m c main_v0_1 (by decide) (by decide)).trans (W1_arr m c 3)

/-- The first kernel writes neither the layer's weights nor the bias. -/
theorem W1_main_arg2 (c : Dev nD) : W1 m c (Proc.devRef .tc main_arg2) = m ((c : Thread nD τ).loc main_arg2) :=
  W1_of_ne m c main_arg2 (by decide)
theorem W1_main_arg3 (c : Dev nD) : W1 m c (Proc.devRef .tc main_arg3) = m ((c : Thread nD τ).loc main_arg3) :=
  W1_of_ne m c main_arg3 (by decide)

/-- The layer's weights reach it transposed. -/
theorem V2_main_v1 (c : Dev nD) :
    V2 m c main_v1 = transpose S128x128 [1, 0] (m ((c : Thread nD τ).loc main_arg2)) transposes_S128x128_S128x128_1_0 := by
  show StableHlo.after hostOps1 (W1 m c) (Proc.devRef .tc main_v1) = _
  after_results
  rw [W1_main_arg2]

/-- The bias reaches it as one row. -/
theorem V2_main_v2 (c : Dev nD) :
    V2 m c main_v2 = shapeCast S1x128 (m ((c : Thread nD τ).loc main_arg3)) shapeCasts_S128_S1x128 := by
  show StableHlo.after hostOps1 (W1 m c) (Proc.devRef .tc main_v2) = _
  after_results
  rw [W1_main_arg3]
  rfl

theorem V2_main_v1_apply (c : Dev nD) (k o : Fin 128) :
    V2 m c main_v1 (ix2 k o) = m ((c : Thread nD τ).loc main_arg2) (ix2 o k) := by
  rw [V2_main_v1]; exact transpose_ix2_apply _ _ k o

theorem V2_main_v2_apply (c : Dev nD) (u : Fin 1) (o : Fin 128) :
    V2 m c main_v2 (ix2 u o) = m ((c : Thread nD τ).loc main_arg3) (ix1 o) := by
  rw [V2_main_v2]; exact shapeCast_a_1a_apply _ _ u o

end Cert.KernelIdeal.Hand

end
-- ==== Proof.IdealResult.lean ====
/-
  The kernel side's result array as the specification's function of the four argument arrays.

  After the second kernel the result array holds, at every (batch, node, output feature), the second
  kernel's arithmetic on the five arrays it finds. Those are: the weights as launched; the first kernel's
  two results, which hold every node's inverse root degree and every node's scaled features; the layer
  weights transposed; and the bias as one row. Substituting them gives

    (the sum over k of ((the sum over m of A(g,n,m) * xs(g,m,k)) + xs(g,n,k)) * W(o,k)) * dinv(g,n) + b(o),

  which is the specification's arrangement.
-/
import proofs.«100409_j75703093559638_2_alg».proof.Proof.IdealArrays0
import proofs.«100409_j75703093559638_2_alg».proof.Proof.IdealArrays1
import proofs.«100409_j75703093559638_2_alg».proof.Proof.IdealBoundary

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- After the whole program the result array is the layer's result on the launch contents of the four arguments. -/
theorem result (m : (ℓ : Loc nD τ sig) → Buf (Elt Ideal) ℓ) (c : Dev nD) :
    W3 (F := Ideal) m c (Proc.devRef .tc main_v3)
      = Cert.Gcn.G (m ((c : Thread nD τ).loc main_arg1)) (m ((c : Thread nD τ).loc main_arg0))
          (m ((c : Thread nD τ).loc main_arg2)) (m ((c : Thread nD τ).loc main_arg3)) := by
  have h5 : W3 (F := Ideal) m c (Proc.devRef .tc main_v3) = (dat1 (V2 m) c).arrAt 5 cfg1.N := W3_arr m c 5
  rw [h5, arr1_5 (V2 m) c]
  funext j
  obtain ⟨g, n, o, rfl⟩ : ∃ (g : Fin 4) (n : Fin 4096) (o : Fin 128), j = ix3 g n o := ⟨j 0, j 1, j 2, eq_ix3 j⟩
  rw [res1_apply, res1F_apply, Cert.Gcn.G_apply]
  have h1 := V2_main_v1_apply (F := Ideal) m c
  have h2 := V2_main_v2_apply (F := Ideal) m c
  simp only [h1, h2]
  rw [V2_main_arg1, V2_main_v0_1, V2_main_v0_0, arr0_3 (V0 m) c, arr0_2 (V0 m) c]
  rfl

end Cert.KernelIdeal.HandValue

end
-- ==== Proof.RefSpec.lean ====
/-
  The reference's arrangement of the graph-convolution layer as one function of its four arrays, over
  the extended reals.

  For a batch g, a node n and an output feature o, with e the identity matrix:

    degR(g,n)   = the sum over m of (A(g,n,m) + e(n,m))        -- the row sum of the augmented weights
    dR(g,n)     = 1/sqrt(degR(g,n)) where degR(g,n) > 0, else 0
    refOut(g,n,o) = (the sum over k of (the sum over m of dR(g,n) * (A(g,n,m) + e(n,m)) * dR(g,m) * X(g,m,k)) * W(o,k)) + b(o)

  Here the rows and the columns of the augmented weights are scaled before the two products.
-/
import proofs.«100409_j75703093559638_2_alg».proof.Proof.Spec

noncomputable section

namespace Cert.Gcn.Ref

open Idealize.ShloMosaic Idealize.ShloMosaic.ValueIdx

/-- The identity matrix's entry. -/
def eye (n m : Fin 4096) : EReal := if n = m then 1 else 0

variable (A : SA.Idx → EReal) (X : SX.Idx → EReal) (W : SW.Idx → EReal) (b : SB.Idx → EReal)

/-- The augmented row sum: the weights of the row with the identity's row added, summed. -/
def degR (g : Fin 4) (n : Fin 4096) : EReal := ∑ m : Fin 4096, (A (ix3 g n m) + eye n m)

/-- The inverse square root of the augmented row sum where it is positive, zero elsewhere. -/
def dR (g : Fin 4) (n : Fin 4096) : EReal := if 0 < degR A g n then Ideal.rsqrt (degR A g n) else 0

/-- The reference's result at a batch, a node and an output feature. -/
def refOut (g : Fin 4) (n : Fin 4096) (o : Fin 128) : EReal :=
  (∑ k : Fin 128, (∑ m : Fin 4096, dR A g n * (A (ix3 g n m) + eye n m) * dR A g m * X (ix3 g m k)) * W (ix2 o k))
    + b (ix1 o)

/-- The reference's result as one array. -/
def RefG : SX.Idx → EReal := fun j => refOut A X W b (j 0) (j 1) (j 2)

theorem RefG_apply (g : Fin 4) (n : Fin 4096) (o : Fin 128) :
    RefG A X W b (ix3 g n o) = refOut A X W b g n o := rfl

end Cert.Gcn.Ref

end
-- ==== Proof.RefRead.lean ====
/-
  The reference computation read at an index.

  The reference builds the identity matrix from two index grids, adds it to the adjacency weights,
  sums each row to a degree, takes the inverse square root where the degree is positive (zero
  elsewhere), scales the rows and the columns of the augmented weights by it, multiplies by the node
  features and then by the transposed layer weights, and adds the bias. Read one operation at a time
  at a literal index this gives, for a batch g, a node n and an output feature o,

    (the sum over k of (the sum over m of d(g,n) * (A(g,n,m) + e(n,m)) * d(g,m) * X(g,m,k)) * W(o,k)) + b(o)

  with e the identity matrix's entry, d(g,n) the inverse root of the augmented row sum where that sum is
  positive and zero elsewhere.
-/
import proofs.«100409_j75703093559638_2_alg».proof.Proof.Gen.ReferenceIdeal.Read
import proofs.«100409_j75703093559638_2_alg».proof.Proof.RefSpec

noncomputable section

namespace Cert.Gcn.Ref

open Idealize.ShloMosaic Idealize.ShloMosaic.ValueIdx
open Cert.ReferenceIdeal Cert.ReferenceIdeal.Gen Cert.ReferenceIdeal.Read

variable (A : SA.Idx → EReal) (X : SX.Idx → EReal) (W : SW.Idx → EReal) (b : SB.Idx → EReal)

/-! ### The identity matrix -/

/-- Two node numbers are equal exactly when their 32-bit words are. -/
theorem ofNat_eq_iff (n m : Fin 4096) : (BitVec.ofNat 32 n.val + 0#32 = BitVec.ofNat 32 m.val) ↔ n = m := by
  rw [BitVec.add_zero]
  constructor
  · intro h
    have h' := congrArg BitVec.toNat h
    simp only [BitVec.toNat_ofNat] at h'
    have hn : n.val % 2 ^ 32 = n.val := Nat.mod_eq_of_lt (by have := n.isLt; omega)
    have hm : m.val % 2 ^ 32 = m.val := Nat.mod_eq_of_lt (by have := m.isLt; omega)
    rw [hn, hm] at h'
    exact Fin.ext h'
  · intro h; rw [h]

/-- The compare of the two index grids, converted to a float, is the identity matrix. -/
theorem v5_at (n m : Fin 4096) : val_main_v5 (F := Ideal) (ix2 n m) = eye n m := by
  rw [val_main_v5_apply, val_main_v4_apply, val_main_v3_apply, val_main_v0_apply, val_main_v1_apply,
    val_main_v2_apply, val_main_c_apply]
  show FloatOps.uitofp (F := Ideal) .f32 (IntOp.cmpi .eq (IntOp.addi (BitVec.ofNat 32 n.val) 0#32) (BitVec.ofNat 32 m.val)) = eye n m
  unfold eye
  by_cases h : n = m
  · have hb : IntOp.cmpi .eq (IntOp.addi (BitVec.ofNat 32 n.val) 0#32) (BitVec.ofNat 32 m.val) = 1#1 := by
      show BitVec.ofBool (BitVec.ofNat 32 n.val + 0#32 == BitVec.ofNat 32 m.val) = 1#1
      rw [(beq_iff_eq).mpr ((ofNat_eq_iff n m).mpr h)]; rfl
    rw [hb, if_pos h]
    show (((1#1 : BitVec 1).toNat : ℝ) : EReal) = 1
    simp
  · have hb : IntOp.cmpi .eq (IntOp.addi (BitVec.ofNat 32 n.val) 0#32) (BitVec.ofNat 32 m.val) = 0#1 := by
      show BitVec.ofBool (BitVec.ofNat 32 n.val + 0#32 == BitVec.ofNat 32 m.val) = 0#1
      have : (BitVec.ofNat 32 n.val + 0#32 == BitVec.ofNat 32 m.val) = false := by
        rw [beq_eq_false_iff_ne]; exact fun hh => h ((ofNat_eq_iff n m).mp hh)
      rw [this]; rfl
    rw [hb, if_neg h]
    show (((0#1 : BitVec 1).toNat : ℝ) : EReal) = 0
    simp

theorem v7_at (g : Fin 4) (n m : Fin 4096) : val_main_v7 (F := Ideal) (ix3 g n m) = eye n m := by
  rw [val_main_v7_apply, val_main_v6_apply]
  have e : idx_main_v6 (idx_main_v7 (ix3 g n m)) = ix2 n m :=
    funext fun a => Fin.ext (by match a with | ⟨0, _⟩ => rfl | ⟨1, _⟩ => rfl)
  rw [e, v5_at]

/-! ### The augmented weights, their row sums and the inverse roots -/

theorem v8_at (g : Fin 4) (n m : Fin 4096) :
    val_main_v8 (F := Ideal) A (ix3 g n m) = A (ix3 g n m) + eye n m := by
  rw [val_main_v8_apply, v7_at]; rfl

theorem v9_at (g : Fin 4) (n : Fin 4096) : val_main_v9 (F := Ideal) A (ix2 g n) = degR A g n := by
  rw [val_main_v9_apply, val_main_cst_apply]
  show Ideal.ofBits .f32 0x00000000#32 + _ = _
  rw [Ideal.ofBits_zero_f32, zero_add]
  unfold degR
  refine Finset.sum_congr rfl fun m _ => ?_
  have e : idx_main_v9 (ix2 g n) m = ix3 g n m :=
    funext fun a => Fin.ext (by match a with | ⟨0, _⟩ => rfl | ⟨1, _⟩ => rfl | ⟨2, _⟩ => rfl)
  rw [e, v8_at]

theorem v13_at (g : Fin 4) (n : Fin 4096) : val_main_v13 (F := Ideal) A (ix2 g n) = dR A g n := by
  rw [val_main_v13_apply, val_main_v11_apply, val_main_v12_apply, val_main_v10_apply, val_main_cst_0_apply,
    val_main_call0_v1_apply, val_main_call0_v0_apply, val_main_cst_1_apply, v9_at]
  show Scalar.select (Ideal.cmp .ogt (degR A g n) (Ideal.ofBits .f32 0x00000000#32)) (Ideal.rsqrt (degR A g n))
    (Ideal.ofBits .f32 0x00000000#32) = dR A g n
  rw [Ideal.ofBits_zero_f32]
  unfold dR Scalar.select Ideal.cmp
  by_cases h : 0 < degR A g n
  · rw [if_pos h, if_pos (by simp [h])]
  · rw [if_neg h, if_neg (by simp [h])]

theorem v15_at (g : Fin 4) (n m : Fin 4096) : val_main_v15 (F := Ideal) A (ix3 g n m) = dR A g n := by
  rw [val_main_v15_apply, val_main_v14_apply]
  have e : idx_main_v14 (idx_main_v15 (ix3 g n m)) = ix2 g n :=
    funext fun a => Fin.ext (by match a with | ⟨0, _⟩ => rfl | ⟨1, _⟩ => rfl)
  rw [e, v13_at]

theorem v18_at (g : Fin 4) (n m : Fin 4096) : val_main_v18 (F := Ideal) A (ix3 g n m) = dR A g m := by
  rw [val_main_v18_apply, val_main_v17_apply]
  have e : idx_main_v17 (idx_main_v18 (ix3 g n m)) = ix2 g m :=
    funext fun a => Fin.ext (by match a with | ⟨0, _⟩ => rfl | ⟨1, _⟩ => rfl)
  rw [e, v13_at]

/-- The normalised weights: rows and columns of the augmented weights scaled by the inverse roots. -/
theorem v19_at (g : Fin 4) (n m : Fin 4096) :
    val_main_v19 (F := Ideal) A (ix3 g n m) = dR A g n * (A (ix3 g n m) + eye n m) * dR A g m := by
  rw [val_main_v19_apply, val_main_v16_apply, v15_at, v8_at, v18_at]; rfl

/-! ### The two products and the bias -/

theorem v20_at (g : Fin 4) (n : Fin 4096) (k : Fin 128) :
    val_main_v20 (F := Ideal) X A (ix3 g n k)
      = ∑ m : Fin 4096, dR A g n * (A (ix3 g n m) + eye n m) * dR A g m * X (ix3 g m k) := by
  rw [val_main_v20_apply]
  refine Finset.sum_congr rfl fun m _ => ?_
  have el : lidx_main_v20 (ix3 g n k) m = ix3 g n m :=
    funext fun a => Fin.ext (by match a with | ⟨0, _⟩ => rfl | ⟨1, _⟩ => rfl | ⟨2, _⟩ => rfl)
  have er : ridx_main_v20 (ix3 g n k) m = ix3 g m k :=
    funext fun a => Fin.ext (by match a with | ⟨0, _⟩ => rfl | ⟨1, _⟩ => rfl | ⟨2, _⟩ => rfl)
  rw [el, er, v19_at]

theorem v21_at (g : Fin 4) (n : Fin 4096) (o : Fin 128) :
    val_main_v21 (F := Ideal) X A W (ix3 g n o)
      = ∑ k : Fin 128, (∑ m : Fin 4096, dR A g n * (A (ix3 g n m) + eye n m) * dR A g m * X (ix3 g m k)) * W (ix2 o k) := by
  rw [val_main_v21_apply]
  refine Finset.sum_congr rfl fun k _ => ?_
  have el : lidx_main_v21 (ix3 g n o) k = ix3 g n k :=
    funext fun a => Fin.ext (by match a with | ⟨0, _⟩ => rfl | ⟨1, _⟩ => rfl | ⟨2, _⟩ => rfl)
  have er : ridx_main_v21 (ix3 g n o) k = ix2 o k :=
    funext fun a => Fin.ext (by match a with | ⟨0, _⟩ => rfl | ⟨1, _⟩ => rfl)
  rw [el, er, v20_at]

theorem v23_at (g : Fin 4) (n : Fin 4096) (o : Fin 128) : val_main_v23 (F := Ideal) b (ix3 g n o) = b (ix1 o) := by
  rw [val_main_v23_apply, val_main_v22_apply]
  exact congrArg b (funext fun a => Fin.ext (by match a with | ⟨0, _⟩ => rfl))

/-- The reference's last stage is the array `RefG`. -/
theorem val_eq_RefG : val_main_v24 (F := Ideal) X A W b = RefG A X W b := by
  funext j
  obtain ⟨g, n, o, rfl⟩ : ∃ (g : Fin 4) (n : Fin 4096) (o : Fin 128), j = ix3 g n o := ⟨j 0, j 1, j 2, eq_ix3 j⟩
  rw [val_main_v24_apply, v21_at, v23_at, RefG_apply]
  rfl

end Cert.Gcn.Ref

end
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.GcnAlgebra.lean ====
/-
  The two arrangements of the graph-convolution layer agree on real inputs.

  The reference scales the rows and the columns of the augmented weights A + I by the inverse root
  degrees before the two products; the specification scales the features by their own node's inverse
  root, propagates them, adds the node's own scaled features for the self loop, applies the linear
  layer, and scales the row last. With e the identity matrix, d the inverse root degree and real entries,

      the sum over k of (the sum over m of d(n) * (A(n,m) + e(n,m)) * d(m) * X(m,k)) * W(o,k)
    = (the sum over k of ((the sum over m of A(n,m) * (d(m) * X(m,k))) + d(n) * X(n,k)) * W(o,k)) * d(n)

  because the sum over m of e(n,m) * t(m) is t(n) and multiplication distributes over finite sums of
  real numbers. The row sums agree for all extended reals (the identity's row sums to one), so the
  inverse roots are the same function; they are real when the weights are.
-/
import proofs.«100409_j75703093559638_2_alg».proof.Proof.RefSpec
import proofs.«100409_j75703093559638_2_alg».proof.Proof.LibRealSums

noncomputable section

namespace Cert.Gcn

open Idealize.ShloMosaic Idealize.ShloMosaic.ValueIdx Cert.RealSums

/-- The law between the two arrangements, over real numbers and abstract finite index types. -/
theorem real_law {N K : Type*} [Fintype N] [Fintype K] [DecidableEq N] (a : N → ℝ) (δ : N → ℝ) (x : N → K → ℝ)
    (w : K → ℝ) (n : N) :
    ∑ k, (∑ m, δ n * (a m + (if n = m then 1 else 0)) * δ m * x m k) * w k
      = (∑ k, ((∑ m, a m * (δ m * x m k)) + δ n * x n k) * w k) * δ n := by
  rw [Finset.sum_mul]
  refine Finset.sum_congr rfl fun k _ => ?_
  have h : ∀ m, δ n * (a m + (if n = m then 1 else 0)) * δ m * x m k
      = δ n * (a m * (δ m * x m k)) + δ n * (if n = m then δ m * x m k else 0) := by
    intro m; split_ifs <;> ring
  have hs : ∑ m, δ n * (a m + (if n = m then 1 else 0)) * δ m * x m k
      = δ n * ((∑ m, a m * (δ m * x m k)) + δ n * x n k) := by
    simp only [h, Finset.sum_add_distrib, ← Finset.mul_sum, Finset.sum_ite_eq, Finset.mem_univ, if_true]
    ring
  rw [hs]; ring

namespace Ref

variable (A : SA.Idx → EReal) (X : SX.Idx → EReal) (W : SW.Idx → EReal) (b : SB.Idx → EReal)

/-- The identity matrix's entry is a real number. -/
theorem eye_coe (n m : Fin 4096) : eye n m = (((if n = m then 1 else 0 : ℝ)) : EReal) := by
  unfold eye; split_ifs <;> simp

/-- A row of the identity matrix sums to one. -/
theorem sum_eye (n : Fin 4096) : ∑ m : Fin 4096, eye n m = 1 := by
  unfold eye; rw [Finset.sum_ite_eq, if_pos (Finset.mem_univ n)]

/-- The augmented row sum is the degree: the row sum plus one. -/
theorem degR_eq_deg (g : Fin 4) (n : Fin 4096) : degR A g n = deg A g n := by
  unfold degR deg; rw [Finset.sum_add_distrib, sum_eye]

/-- Both sides take the same inverse root degree. -/
theorem dR_eq_dinv (g : Fin 4) (n : Fin 4096) : dR A g n = dinv A g n := by
  unfold dR dinv; rw [degR_eq_deg]

end Ref

variable (A : SA.Idx → EReal) (X : SX.Idx → EReal) (W : SW.Idx → EReal) (b : SB.Idx → EReal)

/-- With real weights the inverse root degree is a real number. -/
theorem dinv_isReal (hA : ∀ i, ∃ r : ℝ, A i = (r : EReal)) (g : Fin 4) (n : Fin 4096) :
    ∃ r : ℝ, dinv A g n = (r : EReal) := by
  choose a ha using hA
  have hdeg : deg A g n = (((∑ m : Fin 4096, a (ix3 g n m)) + 1 : ℝ) : EReal) := by
    unfold deg; simp only [ha]; rw [coe_finset_sum, EReal.coe_add, EReal.coe_one]
  unfold dinv; rw [hdeg]
  by_cases h : (0 : ℝ) < (∑ m : Fin 4096, a (ix3 g n m)) + 1
  · rw [if_pos (EReal.coe_pos.mpr h), rsqrt_coe_pos h]; exact ⟨_, rfl⟩
  · rw [if_neg (fun h' => h (EReal.coe_pos.mp h'))]; exact ⟨0, EReal.coe_zero.symm⟩

/-- On real inputs the reference's arrangement is the specification, entry by entry. -/
theorem Ref.refOut_eq_out (hA : ∀ i, ∃ r : ℝ, A i = (r : EReal)) (hX : ∀ i, ∃ r : ℝ, X i = (r : EReal))
    (hW : ∀ i, ∃ r : ℝ, W i = (r : EReal)) (g : Fin 4) (n : Fin 4096) (o : Fin 128) :
    Ref.refOut A X W b g n o = out A X W b g n o := by
  choose δ hδ using fun (p : Fin 4 × Fin 4096) => dinv_isReal A hA p.1 p.2
  have hδ' : ∀ (g : Fin 4) (n : Fin 4096), dinv A g n = ((δ (g, n) : ℝ) : EReal) := fun g n => hδ (g, n)
  choose a ha using hA
  choose x hx using hX
  choose w hw using hW
  unfold Ref.refOut out hraw xs
  simp only [Ref.dR_eq_dinv, hδ', ha, hx, hw, Ref.eye_coe, ← EReal.coe_mul, ← EReal.coe_add, coe_finset_sum]
  have h := real_law (fun m : Fin 4096 => a (ix3 g n m)) (fun m : Fin 4096 => δ (g, m))
    (fun (m : Fin 4096) (k : Fin 128) => x (ix3 g m k)) (fun k : Fin 128 => w (ix2 o k)) n
  beta_reduce at h
  rw [h]

/-- On real inputs the reference's array is the specification's. -/
theorem Ref.RefG_eq_G (hA : ∀ i, ∃ r : ℝ, A i = (r : EReal)) (hX : ∀ i, ∃ r : ℝ, X i = (r : EReal))
    (hW : ∀ i, ∃ r : ℝ, W i = (r : EReal)) : Ref.RefG A X W b = G A X W b :=
  funext fun j => Ref.refOut_eq_out A X W b hA hX hW (j 0) (j 1) (j 2)

end Cert.Gcn

end
-- ==== Proof.FiniteInputs.lean ====
/-
  From the precondition to real entries.

  The precondition says of each of the four arrays that every entry's absolute value is below +infinity:
  per array the comparisons are folded by "and" from 1 into one word, the four words are joined by "and",
  and the result is 1. Hence every comparison is 1, so |x| < +infinity for every entry x, and an extended
  real with that property is neither infinity: it is a real number.
-/
import proofs.«100409_j75703093559638_2_alg».proof.Pre_finite_inputs
import proofs.«100409_j75703093559638_2_alg».proof.Proof.Spec
import Idealize.ShloMosaic.Lib.ReduceAll
import Idealize.ShloMosaic.PureOps.Ideal.Laws

noncomputable section

namespace Cert.Gcn

open Idealize.ShloMosaic Idealize.ShloMosaic.ValueIdx

/-- The word of +infinity. -/
theorem inf_word : Ideal.ofBits .f32 0x7F800000#32 = ⊤ := by simp [Ideal.ofBits, Ideal.ieee]

/-- An extended real whose absolute value compares below +infinity is a real number. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    have h' : BitVec.ofBool (decide (max x (-x) < ⊤)) = 1#1 := h
    rw [decide_eq_false hn] at h'
    exact absurd h' (by decide)
  induction x using EReal.rec with
  | bot => simp at hlt
  | coe r => exact ⟨r, rfl⟩
  | top => simp at hlt

/-- One array's test: if the fold by "and" of the entrywise comparisons |x| < +infinity is 1, every entry is real. -/
theorem all_real {s : Shape} {axes : List (Fin s.rank)} (x : FVec Ideal s .f32)
    (dims : Fin Cert.Pre_finite_inputs.S_.rank → Fin s.rank)
    (hb : Cert.Pre_finite_inputs.S_.BroadcastsInDim s dims)
    (hr : s.ReducesTo axes Cert.Pre_finite_inputs.S_) (hu : 0 < Cert.Pre_finite_inputs.S_.numel)
    (e : Host.reduce IntOp.andi
          (cmpf .olt (Host.absf x) (broadcastInDim s dims hb (constant (F := Ideal) Cert.Pre_finite_inputs.S_ .f32 0x7F800000#32)))
          (constantI Cert.Pre_finite_inputs.S_ 1 1#1) hr hu ix0 = 1#1) :
    ∀ i, ∃ r : ℝ, x i = (r : EReal) := by
  intro i
  haveI : Subsingleton Cert.Pre_finite_inputs.S_.Idx := ⟨fun a b => funext fun d => d.elim0⟩
  have h := Host.reduce_andi_all _ _ hr hu ix0 e i
  exact real_of_abs_lt_inf (x i) h

/-- Under the precondition every entry of the four arrays is a real number. -/
theorem finite_of_pre [Cert.Pre_finite_inputs.Facts] (X : SX.Idx → EReal) (A : SA.Idx → EReal) (W : SW.Idx → EReal)
    (b : SB.Idx → EReal) (h : Cert.Pre_finite_inputs.fn (F := Ideal) X A W b = fun _ => 1#1) :
    (∀ i, ∃ r : ℝ, X i = (r : EReal)) ∧ (∀ i, ∃ r : ℝ, A i = (r : EReal)) ∧ (∀ i, ∃ r : ℝ, W i = (r : EReal))
      ∧ (∀ i, ∃ r : ℝ, b i = (r : EReal)) := by
  have h0 := congrFun h ix0
  dsimp only [Cert.Pre_finite_inputs.fn, Cert.Pre_finite_inputs.fn_part1] at h0
  obtain ⟨h123, h4⟩ := IntOp.andi_eq_one.1 (show IntOp.andi _ _ = 1#1 from h0)
  obtain ⟨h12, h3⟩ := IntOp.andi_eq_one.1 (show IntOp.andi _ _ = 1#1 from h123)
  obtain ⟨h1, h2⟩ := IntOp.andi_eq_one.1 (show IntOp.andi _ _ = 1#1 from h12)
  exact ⟨all_real X _ _ _ _ h1, all_real A _ _ _ _ h2, all_real W _ _ _ _ h3, all_real b _ _ _ _ h4⟩

end Cert.Gcn

end
-- ==== Proof.RefIsSpec.lean ====
/-
  The reference is the specification on finite inputs.

  Read one operation at a time the reference's result is its own arrangement of the layer (rows and
  columns of the augmented weights scaled first); under the precondition every input entry is a real
  number, and on real inputs that arrangement equals the specification's, in which the row scale is
  applied once, after both products.
-/
import proofs.«100409_j75703093559638_2_alg».proof.Proof.RefRead
import proofs.«100409_j75703093559638_2_alg».proof.Proof.GcnAlgebra
import proofs.«100409_j75703093559638_2_alg».proof.Proof.FiniteInputs

noncomputable section

namespace Cert.Gcn.Ref

open Idealize.ShloMosaic Idealize.ShloMosaic.ValueIdx
open Cert.ReferenceIdeal Cert.ReferenceIdeal.Gen

/-- Under the precondition the reference's last stage is the specification's array. -/
theorem result_eq [Cert.Pre_finite_inputs.Facts] (X : Cert.Gcn.SX.Idx → EReal) (A : Cert.Gcn.SA.Idx → EReal)
    (W : Cert.Gcn.SW.Idx → EReal) (b : Cert.Gcn.SB.Idx → EReal)
    (h : Cert.Pre_finite_inputs.fn (F := Ideal) X A W b = fun _ => 1#1) :
    Cert.ReferenceIdeal.Read.val_main_v24 (F := Ideal) X A W b = Cert.Gcn.G A X W b := by
  obtain ⟨hX, hA, hW, _⟩ := Cert.Gcn.finite_of_pre X A W b h
  rw [val_eq_RefG, RefG_eq_G A X W b hA hX hW]

/-- The same for the reference run's composed term of the four argument arrays. -/
theorem result_eq_run [Cert.Pre_finite_inputs.Facts] (X : Cert.Gcn.SX.Idx → EReal) (A : Cert.Gcn.SA.Idx → EReal)
    (W : Cert.Gcn.SW.Idx → EReal) (b : Cert.Gcn.SB.Idx → EReal)
    (h : Cert.Pre_finite_inputs.fn (F := Ideal) X A W b = fun _ => 1#1) :
    addf (F := Ideal) (Host.dotGeneral (F := Ideal) (φ₁ := .f32) (φ₂ := .f32) dot_S4x4096x128_S128x128_S4x4096x128_2_1_01_0_n_n none (Host.dotGeneral (F := Ideal) (φ₁ := .f32) (φ₂ := .f32) dot_S4x4096x4096_S4x4096x128_S4x4096x128_2_1_1_2_0_0 none (mulf (F := Ideal) (mulf (F := Ideal) (broadcastInDim S4x4096x4096 ![0, 1, 2] bcast_S4x4096x1_S4x4096x4096_0_1_2 (broadcastInDim S4x4096x1 ![0, 1] bcast_S4x4096_S4x4096x1_0_1 (select (cmpf (F := Ideal) .ogt (Host.reduceAdd (F := Ideal) (addf (F := Ideal) (A) (broadcastInDim S4x4096x4096 ![0, 1, 2] bcast_S1x4096x4096_S4x4096x4096_0_1_2 (broadcastInDim S1x4096x4096 ![1, 2] bcast_S4096x4096_S1x4096x4096_1_2 (uitofp (F := Ideal) .f32 (cmpi .eq (addi (iotaInDim S4096x4096 32 0) (broadcastInDim S4096x4096 ![] bcast_S_S4096x4096 (constantI S_ 32 0#32))) (iotaInDim S4096x4096 32 1)))))) (constant (F := Ideal) S_ .f32 0x00000000#32) reducesTo_S4x4096x4096_S4x4096_d2 h_S_) (broadcastInDim S4x4096 ![] bcast_S_S4x4096 (constant (F := Ideal) S_ .f32 0x00000000#32))) (Host.rsqrt (F := Ideal) (Host.reduceAdd (F := Ideal) (addf (F := Ideal) (A) (broadcastInDim S4x4096x4096 ![0, 1, 2] bcast_S1x4096x4096_S4x4096x4096_0_1_2 (broadcastInDim S1x4096x4096 ![1, 2] bcast_S4096x4096_S1x4096x4096_1_2 (uitofp (F := Ideal) .f32 (cmpi .eq (addi (iotaInDim S4096x4096 32 0) (broadcastInDim S4096x4096 ![] bcast_S_S4096x4096 (constantI S_ 32 0#32))) (iotaInDim S4096x4096 32 1)))))) (constant (F := Ideal) S_ .f32 0x00000000#32) reducesTo_S4x4096x4096_S4x4096_d2 h_S_)) (broadcastInDim S4x4096 ![] bcast_S_S4x4096 (id (constant (F := Ideal) S_ .f32 0x00000000#32)))))) (addf (F := Ideal) (A) (broadcastInDim S4x4096x4096 ![0, 1, 2] bcast_S1x4096x4096_S4x4096x4096_0_1_2 (broadcastInDim S1x4096x4096 ![1, 2] bcast_S4096x4096_S1x4096x4096_1_2 (uitofp (F := Ideal) .f32 (cmpi .eq (addi (iotaInDim S4096x4096 32 0) (broadcastInDim S4096x4096 ![] bcast_S_S4096x4096 (constantI S_ 32 0#32))) (iotaInDim S4096x4096 32 1))))))) (broadcastInDim S4x4096x4096 ![0, 1, 2] bcast_S4x1x4096_S4x4096x4096_0_1_2 (broadcastInDim S4x1x4096 ![0, 2] bcast_S4x4096_S4x1x4096_0_2 (select (cmpf (F := Ideal) .ogt (Host.reduceAdd (F := Ideal) (addf (F := Ideal) (A) (broadcastInDim S4x4096x4096 ![0, 1, 2] bcast_S1x4096x4096_S4x4096x4096_0_1_2 (broadcastInDim S1x4096x4096 ![1, 2] bcast_S4096x4096_S1x4096x4096_1_2 (uitofp (F := Ideal) .f32 (cmpi .eq (addi (iotaInDim S4096x4096 32 0) (broadcastInDim S4096x4096 ![] bcast_S_S4096x4096 (constantI S_ 32 0#32))) (iotaInDim S4096x4096 32 1)))))) (constant (F := Ideal) S_ .f32 0x00000000#32) reducesTo_S4x4096x4096_S4x4096_d2 h_S_) (broadcastInDim S4x4096 ![] bcast_S_S4x4096 (constant (F := Ideal) S_ .f32 0x00000000#32))) (Host.rsqrt (F := Ideal) (Host.reduceAdd (F := Ideal) (addf (F := Ideal) (A) (broadcastInDim S4x4096x4096 ![0, 1, 2] bcast_S1x4096x4096_S4x4096x4096_0_1_2 (broadcastInDim S1x4096x4096 ![1, 2] bcast_S4096x4096_S1x4096x4096_1_2 (uitofp (F := Ideal) .f32 (cmpi .eq (addi (iotaInDim S4096x4096 32 0) (broadcastInDim S4096x4096 ![] bcast_S_S4096x4096 (constantI S_ 32 0#32))) (iotaInDim S4096x4096 32 1)))))) (constant (F := Ideal) S_ .f32 0x00000000#32) reducesTo_S4x4096x4096_S4x4096_d2 h_S_)) (broadcastInDim S4x4096 ![] bcast_S_S4x4096 (id (constant (F := Ideal) S_ .f32 0x00000000#32))))))) (X)) (W)) (broadcastInDim S4x4096x128 ![0, 1, 2] bcast_S1x1x128_S4x4096x128_0_1_2 (broadcastInDim S1x1x128 ![2] bcast_S128_S1x1x128_2 (b)))
      = Cert.Gcn.G A X W b :=
  (Cert.ReferenceIdeal.Read.val_main_v24_eq (F := Ideal) X A W b).trans (result_eq X A W b h)

end Cert.Gcn.Ref

end
-- ==== Proof.lean ====
/-
  The graph-convolution layer computed in two passes over the adjacency weights against its direct definition.

  The program's first kernel sums each row of the weights in eight chunks of 512 columns, adds one for the self loop,
  and keeps the inverse square root of that degree (zero where the degree is not positive) as a column, together with
  the node features scaled by their own node's value. Its second kernel multiplies a strip of 512 rows of the weights
  into the scaled features, adds the strip's own scaled rows (the self loop's contribution), applies the transposed
  linear layer, scales each row by its inverse root degree, and adds the bias. The reference adds the identity to the
  weights, scales rows and columns by the inverse root degrees, multiplies into the features and applies the layer.

  Over the extended reals the two are one function of the four arrays wherever the arrays are real-valued: the row
  scale is a real and factors out of both sums, and the identity's row contributes exactly the node's own scaled
  features. Both frames of the kernel are proved from each kernel body's run on its staging buffers; the reference's
  frame is its run with the result dropped; no rewrite was applied between the word-level kernel and its idealized form.
-/
import proofs.«100409_j75703093559638_2_alg».proof.Defs
import proofs.«100409_j75703093559638_2_alg».proof.Proof.Gen.Kernel
import proofs.«100409_j75703093559638_2_alg».proof.Proof.Gen.Kernel.Skeleton
import proofs.«100409_j75703093559638_2_alg».proof.Proof.Gen.Kernel.Loops
import proofs.«100409_j75703093559638_2_alg».proof.Proof.Gen.Kernel.Launch
import proofs.«100409_j75703093559638_2_alg».proof.Proof.Gen.Kernel.Regions
import proofs.«100409_j75703093559638_2_alg».proof.Proof.Gen.Kernel.Points
import proofs.«100409_j75703093559638_2_alg».proof.Proof.Gen.KernelIdeal
import proofs.«100409_j75703093559638_2_alg».proof.Proof.Gen.KernelIdeal.Skeleton
import proofs.«100409_j75703093559638_2_alg».proof.Proof.Gen.KernelIdeal.Loops
import proofs.«100409_j75703093559638_2_alg».proof.Proof.Gen.KernelIdeal.Launch
import proofs.«100409_j75703093559638_2_alg».proof.Proof.Gen.KernelIdeal.Regions
import proofs.«100409_j75703093559638_2_alg».proof.Proof.Gen.KernelIdeal.Points
import proofs.«100409_j75703093559638_2_alg».proof.Proof.Gen.ReferenceIdeal
import proofs.«100409_j75703093559638_2_alg».proof.Proof.Gen.ReferenceIdeal.Run
import proofs.«100409_j75703093559638_2_alg».proof.Proof.Gen.ReferenceIdeal.Read
import proofs.«100409_j75703093559638_2_alg».proof.Proof.Gen.Pre_finite_inputs
import proofs.«100409_j75703093559638_2_alg».proof.Proof.BitsFrame
import proofs.«100409_j75703093559638_2_alg».proof.Proof.IdealFrame
import proofs.«100409_j75703093559638_2_alg».proof.Proof.IdealResult
import proofs.«100409_j75703093559638_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel terminates, faults nowhere, and leaves its four arrays as launched. -/
theorem frame_kernel : Cert.frame_Kernel := fun m ρ _ => Cert.Kernel.Hand.frame m ρ

/-- So does its idealized form. -/
theorem frame_kernelIdeal : Cert.frame_KernelIdeal := fun m ρ _ => Cert.KernelIdeal.Hand.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals. -/
theorem preserves : Cert.preserves_Kernel_KernelIdeal := trivial

/-- Both programs end with the layer's one function of the four arrays: the kernel by its two passes read back block
    by block, the reference by its operations read at an index and the factoring of the row scale, which uses that
    the arrays are real-valued. -/
theorem algebraic : Cert.algebraic_KernelIdeal_ReferenceIdeal := by
  intro m ρ m' ρ' hpre hagree
  refine ⟨fun c => Cert.Gcn.G (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v3 (by decide))).trans (Cert.KernelIdeal.HandValue.result m c),
      (h c _ (Cert.KernelIdeal.Hand.mem_uc Cert.KernelIdeal.main_arg0 (by decide))).trans (Cert.KernelIdeal.Hand.W3_main_arg0 m c),
      (h c _ (Cert.KernelIdeal.Hand.mem_uc Cert.KernelIdeal.main_arg1 (by decide))).trans (Cert.KernelIdeal.Hand.W3_main_arg1 m c),
      (h c _ (Cert.KernelIdeal.Hand.mem_uc Cert.KernelIdeal.main_arg2 (by decide))).trans (Cert.KernelIdeal.Hand.W3_main_arg2 m c),
      (h c _ (Cert.KernelIdeal.Hand.mem_uc Cert.KernelIdeal.main_arg3 (by decide))).trans (Cert.KernelIdeal.Hand.W3_main_arg3 m c)⟩
  · refine (θ_run Cert.ReferenceIdeal.defs _ _).mono (fun _ h c => ⟨?_, (h c).2⟩) (Cert.ReferenceIdeal.Value.run (F := Ideal) m' ρ')
    rw [(h c).1, (hagree c).1, (hagree c).2.1, (hagree c).2.2.1, (hagree c).2.2.2]
    exact Cert.Gcn.Ref.result_eq_run _ _ _ _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
